-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v41)) (v1 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_v42) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_v48) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x4096x24x12 : Shape := ⟨4, ![64, 4096, 24, 12]⟩
abbrev S32x384x192 : Shape := ⟨3, ![32, 384, 192]⟩
abbrev S_ : Shape := ⟨0, ![]⟩

class Facts : Prop where
  bcast_S_S64x4096x24x12 : S_.BroadcastsInDim S64x4096x24x12 (![] : Fin 0 → Fin S64x4096x24x12.rank)
  reducesTo_S64x4096x24x12_S_d0_1_2_3 : S64x4096x24x12.ReducesTo [0, 1, 2, 3] S_
  h_S_ : 0 < S_.numel

variable [Facts]

def fn {F : FTy → Type} [FloatOps F] (main_arg0 : FVec F S64x4096x24x12 .f32) (main_arg1 : IVec S32x384x192 32) : IVec S_ 1 :=
  let main_v0 : FVec F S64x4096x24x12 .f32 := Host.absf main_arg0
  let main_cst : FVec F S_ .f32 := constant S_ .f32 0x7F800000#32
  let main_v1 : FVec F S64x4096x24x12 .f32 := broadcastInDim S64x4096x24x12 ![] bcast_S_S64x4096x24x12 main_cst
  let main_v2 : IVec S64x4096x24x12 1 := cmpf .olt main_v0 main_v1
  let main_c : IVec S_ 1 := constantI S_ 1 1#1
  let main_v3 : IVec S_ 1 := (fun x v => Host.reduce IntOp.andi x v reducesTo_S64x4096x24x12_S_d0_1_2_3 h_S_) main_v2 main_c
  main_v3
-- ==== Kernel.lean ====
abbrev S64x4096x24x12 : Shape := ⟨4, ![64, 4096, 24, 12]⟩
abbrev S32x384x192 : Shape := ⟨3, ![32, 384, 192]⟩
abbrev S64x384x192 : Shape := ⟨3, ![64, 384, 192]⟩
abbrev S_ : Shape := ⟨0, ![]⟩
abbrev S64x24x16x12x16 : Shape := ⟨5, ![64, 24, 16, 12, 16]⟩
abbrev S64x24x12 : Shape := ⟨3, ![64, 24, 12]⟩
abbrev S64x1x288 : Shape := ⟨3, ![64, 1, 288]⟩
abbrev S64x4096x288 : Shape := ⟨3, ![64, 4096, 288]⟩
abbrev S64x1 : Shape := ⟨2, ![64, 1]⟩
abbrev S64x1x1 : Shape := ⟨3, ![64, 1, 1]⟩
abbrev S64x2x288 : Shape := ⟨3, ![64, 2, 288]⟩
abbrev S64x4096 : Shape := ⟨2, ![64, 4096]⟩
abbrev S32x128x288 : Shape := ⟨3, ![32, 128, 288]⟩
abbrev S32x2x288 : Shape := ⟨3, ![32, 2, 288]⟩
abbrev S32x128 : Shape := ⟨2, ![32, 128]⟩
abbrev S32x1x288 : Shape := ⟨3, ![32, 1, 288]⟩
abbrev S64x2048 : Shape := ⟨2, ![64, 2048]⟩

abbrev nBuf : Space → Nat
  | .hbm => 59
  | .vmem => 8
  | .smem => 0
  | _ => 0

abbrev bufTy : (tb : Table) → Fin (tcTables nBuf tb) → BufTy
  | .hbm, ⟨0, _⟩ => ⟨S64x4096x24x12, .f32⟩
  | .hbm, ⟨1, _⟩ => ⟨S32x384x192, .i32⟩
  | .hbm, ⟨2, _⟩ => ⟨S64x384x192, .i32⟩
  | .hbm, ⟨3, _⟩ => ⟨S_, .i32⟩
  | .hbm, ⟨4, _⟩ => ⟨S64x384x192, .i32⟩
  | .hbm, ⟨5, _⟩ => ⟨S64x384x192, .i1⟩
  | .hbm, ⟨6, _⟩ => ⟨S_, .i32⟩
  | .hbm, ⟨7, _⟩ => ⟨S64x384x192, .i32⟩
  | .hbm, ⟨8, _⟩ => ⟨S64x384x192, .i1⟩
  | .hbm, ⟨9, _⟩ => ⟨S64x384x192, .i1⟩
  | .hbm, ⟨10, _⟩ => ⟨S64x384x192, .f32⟩
  | .hbm, ⟨11, _⟩ => ⟨S64x24x16x12x16, .f32⟩
  | .hbm, ⟨12, _⟩ => ⟨S_, .f32⟩
  | .hbm, ⟨13, _⟩ => ⟨S64x24x12, .f32⟩
  | .hbm, ⟨14, _⟩ => ⟨S_, .f32⟩
  | .hbm, ⟨15, _⟩ => ⟨S64x24x12, .f32⟩
  | .hbm, ⟨16, _⟩ => ⟨S64x24x12, .f32⟩
  | .hbm, ⟨17, _⟩ => ⟨S_, .f32⟩
  | .hbm, ⟨18, _⟩ => ⟨S64x24x12, .f32⟩
  | .hbm, ⟨19, _⟩ => ⟨S64x24x12, .i1⟩
  | .hbm, ⟨20, _⟩ => ⟨S64x1x288, .i1⟩
  | .hbm, ⟨21, _⟩ => ⟨S64x4096x288, .f32⟩
  | .hbm, ⟨22, _⟩ => ⟨S64x1x288, .i32⟩
  | .hbm, ⟨23, _⟩ => ⟨S_, .i32⟩
  | .hbm, ⟨24, _⟩ => ⟨S64x1, .i32⟩
  | .hbm, ⟨25, _⟩ => ⟨S64x1x1, .i32⟩
  | .hbm, ⟨26, _⟩ => ⟨S64x1x288, .i1⟩
  | .hbm, ⟨27, _⟩ => ⟨S_, .i32⟩
  | .hbm, ⟨28, _⟩ => ⟨S64x1x1, .i32⟩
  | .hbm, ⟨29, _⟩ => ⟨S64x1x1, .i1⟩
  | .hbm, ⟨30, _⟩ => ⟨S_, .i1⟩
  | .hbm, ⟨31, _⟩ => ⟨S64x1x288, .i1⟩
  | .hbm, ⟨32, _⟩ => ⟨S64x1x288, .i1⟩
  | .hbm, ⟨33, _⟩ => ⟨S64x1x288, .i1⟩
  | .hbm, ⟨34, _⟩ => ⟨S64x1x288, .f32⟩
  | .hbm, ⟨35, _⟩ => ⟨S64x1x288, .f32⟩
  | .hbm, ⟨36, _⟩ => ⟨S64x2x288, .f32⟩
  | .hbm, ⟨37, _⟩ => ⟨S_, .f32⟩
  | .hbm, ⟨38, _⟩ => ⟨S64x1, .f32⟩
  | .hbm, ⟨39, _⟩ => ⟨S_, .f32⟩
  | .hbm, ⟨40, _⟩ => ⟨S64x1, .f32⟩
  | .hbm, ⟨41, _⟩ => ⟨S64x1, .f32⟩
  | .hbm, ⟨42, _⟩ => ⟨S_, .f32⟩
  | .hbm, ⟨43, _⟩ => ⟨S64x1, .f32⟩
  | .hbm, ⟨44, _⟩ => ⟨S_, .f32⟩
  | .hbm, ⟨45, _⟩ => ⟨S64x1, .f32⟩
  | .hbm, ⟨46, _⟩ => ⟨S64x1, .f32⟩
  | .hbm, ⟨47, _⟩ => ⟨S64x4096, .f32⟩
  | .hbm, ⟨48, _⟩ => ⟨S64x4096, .f32⟩
  | .hbm, ⟨49, _⟩ => ⟨S64x2048, .f32⟩
  | .hbm, ⟨50, _⟩ => ⟨S64x2048, .f32⟩
  | .hbm, ⟨51, _⟩ => ⟨S64x2048, .f32⟩
  | .hbm, ⟨52, _⟩ => ⟨S64x2048, .f32⟩
  | .hbm, ⟨53, _⟩ => ⟨S64x2048, .f32⟩
  | .hbm, ⟨54, _⟩ => ⟨S64x2048, .f32⟩
  | .hbm, ⟨55, _⟩ => ⟨S64x2048, .f32⟩
  | .hbm, ⟨56, _⟩ => ⟨S64x2048, .f32⟩
  | .hbm, ⟨57, _⟩ => ⟨S64x4096, .f32⟩
  | .hbm, ⟨58, _⟩ => ⟨S64x4096, .f32⟩
  | .local _ .vmem, ⟨0, _⟩ => ⟨S32x128x288, .f32⟩
  | .local _ .vmem, ⟨1, _⟩ => ⟨S32x128x288, .f32⟩
  | .local _ .vmem, ⟨2, _⟩ => ⟨S32x2x288, .f32⟩
  | .local _ .vmem, ⟨3, _⟩ => ⟨S32x2x288, .f32⟩
  | .local _ .vmem, ⟨4, _⟩ => ⟨S32x128, .f32⟩
  | .local _ .vmem, ⟨5, _⟩ => ⟨S32x128, .f32⟩
  | .local _ .vmem, ⟨6, _⟩ => ⟨S32x128, .f32⟩
  | .local _ .vmem, ⟨7, _⟩ => ⟨S32x128, .f32⟩
  | _, _ => ⟨S64x4096x24x12, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_c_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_c_3 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_c_4 : Ref sig .tc := ⟨.hbm, 27, rfl⟩
abbrev main_v19 : Ref sig .tc := ⟨.hbm, 28, rfl⟩
abbrev main_v20 : Ref sig .tc := ⟨.hbm, 29, rfl⟩
abbrev main_c_5 : Ref sig .tc := ⟨.hbm, 30, rfl⟩
abbrev main_v21 : Ref sig .tc := ⟨.hbm, 31, rfl⟩
abbrev main_call0_v0 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_6 : Ref sig .tc := ⟨.hbm, 37, rfl⟩
abbrev main_v26 : Ref sig .tc := ⟨.hbm, 38, rfl⟩
abbrev main_cst_7 : Ref sig .tc := ⟨.hbm, 39, rfl⟩
abbrev main_v27 : Ref sig .tc := ⟨.hbm, 40, rfl⟩
abbrev main_v28 : Ref sig .tc := ⟨.hbm, 41, rfl⟩
abbrev main_cst_8 : Ref sig .tc := ⟨.hbm, 42, rfl⟩
abbrev main_v29 : Ref sig .tc := ⟨.hbm, 43, rfl⟩
abbrev main_cst_9 : Ref sig .tc := ⟨.hbm, 44, rfl⟩
abbrev main_v30 : Ref sig .tc := ⟨.hbm, 45, rfl⟩
abbrev main_v31 : Ref sig .tc := ⟨.hbm, 46, rfl⟩
abbrev main_v32_0 : Ref sig .tc := ⟨.hbm, 47, rfl⟩
abbrev main_v32_1 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S32x128x288 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S32x2x288 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S32x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S32x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  concatenates_S32x384x192_S32x384x192_S64x384x192_d0 : Shape.Concatenates [S32x384x192, S32x384x192] S64x384x192 0
  bcast_S_S64x384x192 : S_.BroadcastsInDim S64x384x192 (![] : Fin 0 → Fin S64x384x192.rank)
  shapeCasts_S64x384x192_S64x24x16x12x16 : S64x384x192.ShapeCasts S64x24x16x12x16
  reducesTo_S64x24x16x12x16_S64x24x12_d2_4 : S64x24x16x12x16.ReducesTo [2, 4] S64x24x12
  h_S_ : 0 < S_.numel
  bcast_S_S64x24x12 : S_.BroadcastsInDim S64x24x12 (![] : Fin 0 → Fin S64x24x12.rank)
  shapeCasts_S64x24x12_S64x1x288 : S64x24x12.ShapeCasts S64x1x288
  shapeCasts_S64x4096x24x12_S64x4096x288 : S64x4096x24x12.ShapeCasts S64x4096x288
  natLt_1_32 : 1 < 32
  reducesTo_S64x1x288_S64x1_d2 : S64x1x288.ReducesTo [2] S64x1
  bcast_S64x1_S64x1x1_0_1 : S64x1.BroadcastsInDim S64x1x1 (![0, 1] : Fin 2 → Fin S64x1x1.rank)
  bcast_S_S64x1x1 : S_.BroadcastsInDim S64x1x1 (![] : Fin 0 → Fin S64x1x1.rank)
  bcast_S_S64x1x288 : S_.BroadcastsInDim S64x1x288 (![] : Fin 0 → Fin S64x1x288.rank)
  bcast_S64x1x1_S64x1x288_0_1_2 : S64x1x1.BroadcastsInDim S64x1x288 (![0, 1, 2] : Fin 3 → Fin S64x1x288.rank)
  concatenates_S64x1x288_S64x1x288_S64x2x288_d1 : Shape.Concatenates [S64x1x288, S64x1x288] S64x2x288 1
  bcast_S_S64x1 : S_.BroadcastsInDim S64x1 (![] : Fin 0 → Fin S64x1.rank)
  inb_S32x128x288_S32x128x288_0_0_0 : ∀ a, (![0, 0, 0] : Fin 3 → Nat) a + S32x128x288.size a ≤ S32x128x288.size a
  h_S32x128x288 : 0 < S32x128x288.numel
  shapeCasts_S32x128x288_S32x128x288 : S32x128x288.ShapeCasts S32x128x288
  inb_S32x2x288_S32x2x288_0_0_0 : ∀ a, (![0, 0, 0] : Fin 3 → Nat) a + S32x2x288.size a ≤ S32x2x288.size a
  h_S32x2x288 : 0 < S32x2x288.numel
  shapeCasts_S32x2x288_S32x2x288 : S32x2x288.ShapeCasts S32x2x288
  slices_S32x2x288_o0_0_0_S32x1x288 : S32x2x288.Slices ![0, 0, 0] S32x1x288
  slices_S32x2x288_o0_1_0_S32x1x288 : S32x2x288.Slices ![0, 1, 0] S32x1x288
  shapeCasts_S32x1x288_S32x1x288 : S32x1x288.ShapeCasts S32x1x288
  broadcasts_S32x1x288_S32x128x288 : S32x1x288.Broadcasts S32x128x288
  reduces_S32x128x288_S32x128 : S32x128x288.Reduces [2] S32x128
  inb_S32x128_S32x128_0_0 : ∀ a, (![0, 0] : Fin 2 → Nat) a + S32x128.size a ≤ S32x128.size a
  h_S32x128 : 0 < S32x128.numel
  slices_S64x4096_S64x2048_0_0 : S64x4096.Slices ![0, 0] S64x2048
  slices_S64x4096_S64x2048_0_2048 : S64x4096.Slices ![0, 2048] S64x2048
  bcast_S64x1_S64x2048_0_1 : S64x1.BroadcastsInDim S64x2048 (![0, 1] : Fin 2 → Fin S64x2048.rank)
  concatenates_S64x2048_S64x2048_S64x4096_d1 : Shape.Concatenates [S64x2048, S64x2048] S64x4096 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x128x288.size a ≤ S64x4096x288.size a
  hwx0_0 : ∀ i : grid0.Coords, EltTy.bits .f32 = 32 ∨ (Rect.block (s := S64x4096x288) S32x128x288.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x2x288.size a ≤ S64x2x288.size a
  hwx0_1 : ∀ i : grid0.Coords, EltTy.bits .f32 = 32 ∨ (Rect.block (s := S64x2x288) S32x2x288.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x128.size a ≤ S64x4096.size a
  hwx0_2 : ∀ i : grid0.Coords, EltTy.bits .f32 = 32 ∨ (Rect.block (s := S64x4096) S32x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S32x128.size a ≤ S64x4096.size a
  hwx0_3 : ∀ i : grid0.Coords, EltTy.bits .f32 = 32 ∨ (Rect.block (s := S64x4096) S32x128.size (cc0_transform_3 i) (hinb0_3 i)).WholeWords (EltTy.packing .f32)

variable [Facts₀]

abbrev win0_0 : Pipeline.Window sig grid0 :=
  Pipeline.Window.ofSpec (Memref.whole main_v14) S32x128x288.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v25) S32x2x288.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v32_0) S32x128.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v32_1) S32x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S64x4096x24x12 : Shape := ⟨4, ![64, 4096, 24, 12]⟩
abbrev S32x384x192 : Shape := ⟨3, ![32, 384, 192]⟩
abbrev S64x384x192 : Shape := ⟨3, ![64, 384, 192]⟩
abbrev S_ : Shape := ⟨0, ![]⟩
abbrev S64x24x16x12x16 : Shape := ⟨5, ![64, 24, 16, 12, 16]⟩
abbrev S64x24x12 : Shape := ⟨3, ![64, 24, 12]⟩
abbrev S64x1x288 : Shape := ⟨3, ![64, 1, 288]⟩
abbrev S64x4096x288 : Shape := ⟨3, ![64, 4096, 288]⟩
abbrev S64x2048x288 : Shape := ⟨3, ![64, 2048, 288]⟩
abbrev S64x1 : Shape := ⟨2, ![64, 1]⟩
abbrev S64x1x1 : Shape := ⟨3, ![64, 1, 1]⟩
abbrev S64x2048 : Shape := ⟨2, ![64, 2048]⟩
abbrev S64x4096 : Shape := ⟨2, ![64, 4096]⟩

abbrev nBuf : Space → Nat
  | .hbm => 76
  | .vmem => 0
  | .smem => 0
  | _ => 0

abbrev bufTy : (tb : Table) → Fin (tcTables nBuf tb) → BufTy
  | .hbm, ⟨0, _⟩ => ⟨S64x4096x24x12, .f32⟩
  | .hbm, ⟨1, _⟩ => ⟨S32x384x192, .i32⟩
  | .hbm, ⟨2, _⟩ => ⟨S64x384x192, .i32⟩
  | .hbm, ⟨3, _⟩ => ⟨S_, .i32⟩
  | .hbm, ⟨4, _⟩ => ⟨S64x384x192, .i32⟩
  | .hbm, ⟨5, _⟩ => ⟨S64x384x192, .i1⟩
  | .hbm, ⟨6, _⟩ => ⟨S_, .i32⟩
  | .hbm, ⟨7, _⟩ => ⟨S64x384x192, .i32⟩
  | .hbm, ⟨8, _⟩ => ⟨S64x384x192, .i1⟩
  | .hbm, ⟨9, _⟩ => ⟨S64x384x192, .i1⟩
  | .hbm, ⟨10, _⟩ => ⟨S64x384x192, .f32⟩
  | .hbm, ⟨11, _⟩ => ⟨S64x24x16x12x16, .f32⟩
  | .hbm, ⟨12, _⟩ => ⟨S_, .f32⟩
  | .hbm, ⟨13, _⟩ => ⟨S64x24x12, .f32⟩
  | .hbm, ⟨14, _⟩ => ⟨S_, .f32⟩
  | .hbm, ⟨15, _⟩ => ⟨S64x24x12, .f32⟩
  | .hbm, ⟨16, _⟩ => ⟨S64x24x12, .f32⟩
  | .hbm, ⟨17, _⟩ => ⟨S_, .f32⟩
  | .hbm, ⟨18, _⟩ => ⟨S64x24x12, .f32⟩
  | .hbm, ⟨19, _⟩ => ⟨S64x24x12, .i1⟩
  | .hbm, ⟨20, _⟩ => ⟨S64x1x288, .i1⟩
  | .hbm, ⟨21, _⟩ => ⟨S64x4096x288, .f32⟩
  | .hbm, ⟨22, _⟩ => ⟨S64x2048x288, .f32⟩
  | .hbm, ⟨23, _⟩ => ⟨S64x2048x288, .f32⟩
  | .hbm, ⟨24, _⟩ => ⟨S64x1x288, .i32⟩
  | .hbm, ⟨25, _⟩ => ⟨S_, .i32⟩
  | .hbm, ⟨26, _⟩ => ⟨S64x1, .i32⟩
  | .hbm, ⟨27, _⟩ => ⟨S64x1x1, .i32⟩
  | .hbm, ⟨28, _⟩ => ⟨S64x1x288, .i1⟩
  | .hbm, ⟨29, _⟩ => ⟨S_, .i32⟩
  | .hbm, ⟨30, _⟩ => ⟨S64x1x1, .i32⟩
  | .hbm, ⟨31, _⟩ => ⟨S64x1x1, .i1⟩
  | .hbm, ⟨32, _⟩ => ⟨S_, .i1⟩
  | .hbm, ⟨33, _⟩ => ⟨S64x1x288, .i1⟩
  | .hbm, ⟨34, _⟩ => ⟨S64x1x288, .i1⟩
  | .hbm, ⟨35, _⟩ => ⟨S64x1x288, .i1⟩
  | .hbm, ⟨36, _⟩ => ⟨S64x1x288, .f32⟩
  | .hbm, ⟨37, _⟩ => ⟨S_, .f32⟩
  | .hbm, ⟨38, _⟩ => ⟨S64x1, .f32⟩
  | .hbm, ⟨39, _⟩ => ⟨S_, .f32⟩
  | .hbm, ⟨40, _⟩ => ⟨S64x1, .f32⟩
  | .hbm, ⟨41, _⟩ => ⟨S64x1, .f32⟩
  | .hbm, ⟨42, _⟩ => ⟨S64x2048x288, .f32⟩
  | .hbm, ⟨43, _⟩ => ⟨S64x2048x288, .f32⟩
  | .hbm, ⟨44, _⟩ => ⟨S_, .f32⟩
  | .hbm, ⟨45, _⟩ => ⟨S64x2048, .f32⟩
  | .hbm, ⟨46, _⟩ => ⟨S64x2048, .f32⟩
  | .hbm, ⟨47, _⟩ => ⟨S64x2048, .f32⟩
  | .hbm, ⟨48, _⟩ => ⟨S_, .f32⟩
  | .hbm, ⟨49, _⟩ => ⟨S_, .f32⟩
  | .hbm, ⟨50, _⟩ => ⟨S64x2048x288, .i1⟩
  | .hbm, ⟨51, _⟩ => ⟨S64x2048x288, .f32⟩
  | .hbm, ⟨52, _⟩ => ⟨S64x2048x288, .f32⟩
  | .hbm, ⟨53, _⟩ => ⟨S_, .f32⟩
  | .hbm, ⟨54, _⟩ => ⟨S64x2048, .f32⟩
  | .hbm, ⟨55, _⟩ => ⟨S64x4096, .f32⟩
  | .hbm, ⟨56, _⟩ => ⟨S64x1x288, .f32⟩
  | .hbm, ⟨57, _⟩ => ⟨S_, .f32⟩
  | .hbm, ⟨58, _⟩ => ⟨S64x1, .f32⟩
  | .hbm, ⟨59, _⟩ => ⟨S_, .f32⟩
  | .hbm, ⟨60, _⟩ => ⟨S64x1, .f32⟩
  | .hbm, ⟨61, _⟩ => ⟨S64x1, .f32⟩
  | .hbm, ⟨62, _⟩ => ⟨S64x2048x288, .f32⟩
  | .hbm, ⟨63, _⟩ => ⟨S64x2048x288, .f32⟩
  | .hbm, ⟨64, _⟩ => ⟨S_, .f32⟩
  | .hbm, ⟨65, _⟩ => ⟨S64x2048, .f32⟩
  | .hbm, ⟨66, _⟩ => ⟨S64x2048, .f32⟩
  | .hbm, ⟨67, _⟩ => ⟨S64x2048, .f32⟩
  | .hbm, ⟨68, _⟩ => ⟨S_, .f32⟩
  | .hbm, ⟨69, _⟩ => ⟨S_, .f32⟩
  | .hbm, ⟨70, _⟩ => ⟨S64x2048x288, .i1⟩
  | .hbm, ⟨71, _⟩ => ⟨S64x2048x288, .f32⟩
  | .hbm, ⟨72, _⟩ => ⟨S64x2048x288, .f32⟩
  | .hbm, ⟨73, _⟩ => ⟨S_, .f32⟩
  | .hbm, ⟨74, _⟩ => ⟨S64x2048, .f32⟩
  | .hbm, ⟨75, _⟩ => ⟨S64x4096, .f32⟩
  | _, _ => ⟨S64x4096x24x12, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_c_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_c_3 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_c_4 : Ref sig .tc := ⟨.hbm, 29, rfl⟩
abbrev main_v21 : Ref sig .tc := ⟨.hbm, 30, rfl⟩
abbrev main_v22 : Ref sig .tc := ⟨.hbm, 31, rfl⟩
abbrev main_c_5 : Ref sig .tc := ⟨.hbm, 32, rfl⟩
abbrev main_v23 : Ref sig .tc := ⟨.hbm, 33, rfl⟩
abbrev main_call0_v0 : Ref sig .tc := ⟨.hbm, 34, rfl⟩
abbrev main_v24 : Ref sig .tc := ⟨.hbm, 35, rfl⟩
abbrev main_v25 : Ref sig .tc := ⟨.hbm, 36, rfl⟩
abbrev main_cst_6 : Ref sig .tc := ⟨.hbm, 37, rfl⟩
abbrev main_v26 : Ref sig .tc := ⟨.hbm, 38, rfl⟩
abbrev main_cst_7 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_8 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_9 : Ref sig .tc := ⟨.hbm, 48, rfl⟩
abbrev main_call1_v0 : Ref sig .tc := ⟨.hbm, 49, rfl⟩
abbrev main_call1_v1 : Ref sig .tc := ⟨.hbm, 50, rfl⟩
abbrev main_call1_v2 : Ref sig .tc := ⟨.hbm, 51, rfl⟩
abbrev main_v34 : Ref sig .tc := ⟨.hbm, 52, rfl⟩
abbrev main_cst_10 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_11 : Ref sig .tc := ⟨.hbm, 57, rfl⟩
abbrev main_v38 : Ref sig .tc := ⟨.hbm, 58, rfl⟩
abbrev main_cst_12 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_13 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst_14 : Ref sig .tc := ⟨.hbm, 68, rfl⟩
abbrev main_call2_v0 : Ref sig .tc := ⟨.hbm, 69, rfl⟩
abbrev main_call2_v1 : Ref sig .tc := ⟨.hbm, 70, rfl⟩
abbrev main_call2_v2 : Ref sig .tc := ⟨.hbm, 71, rfl⟩
abbrev main_v46 : Ref sig .tc := ⟨.hbm, 72, rfl⟩
abbrev main_cst_15 : Ref sig .tc := ⟨.hbm, 73, rfl⟩
abbrev main_v47 : Ref sig .tc := ⟨.hbm, 74, rfl⟩
abbrev main_v48 : Ref sig .tc := ⟨.hbm, 75, rfl⟩

abbrev nD : Nat := 1
abbrev τ : Topo := Topo.v7x

variable {F : FTy → Type} [FloatOps F]

class Facts₀ : Prop where
  concatenates_S32x384x192_S32x384x192_S64x384x192_d0 : Shape.Concatenates [S32x384x192, S32x384x192] S64x384x192 0
  bcast_S_S64x384x192 : S_.BroadcastsInDim S64x384x192 (![] : Fin 0 → Fin S64x384x192.rank)
  shapeCasts_S64x384x192_S64x24x16x12x16 : S64x384x192.ShapeCasts S64x24x16x12x16
  reducesTo_S64x24x16x12x16_S64x24x12_d2_4 : S64x24x16x12x16.ReducesTo [2, 4] S64x24x12
  h_S_ : 0 < S_.numel
  bcast_S_S64x24x12 : S_.BroadcastsInDim S64x24x12 (![] : Fin 0 → Fin S64x24x12.rank)
  shapeCasts_S64x24x12_S64x1x288 : S64x24x12.ShapeCasts S64x1x288
  shapeCasts_S64x4096x24x12_S64x4096x288 : S64x4096x24x12.ShapeCasts S64x4096x288
  slices_S64x4096x288_S64x2048x288_0_0_0 : S64x4096x288.Slices ![0, 0, 0] S64x2048x288
  slices_S64x4096x288_S64x2048x288_0_2048_0 : S64x4096x288.Slices ![0, 2048, 0] S64x2048x288
  natLt_1_32 : 1 < 32
  reducesTo_S64x1x288_S64x1_d2 : S64x1x288.ReducesTo [2] S64x1
  bcast_S64x1_S64x1x1_0_1 : S64x1.BroadcastsInDim S64x1x1 (![0, 1] : Fin 2 → Fin S64x1x1.rank)
  bcast_S_S64x1x1 : S_.BroadcastsInDim S64x1x1 (![] : Fin 0 → Fin S64x1x1.rank)
  bcast_S_S64x1x288 : S_.BroadcastsInDim S64x1x288 (![] : Fin 0 → Fin S64x1x288.rank)
  bcast_S64x1x1_S64x1x288_0_1_2 : S64x1x1.BroadcastsInDim S64x1x288 (![0, 1, 2] : Fin 3 → Fin S64x1x288.rank)
  bcast_S_S64x1 : S_.BroadcastsInDim S64x1 (![] : Fin 0 → Fin S64x1.rank)
  bcast_S64x1x288_S64x2048x288_0_1_2 : S64x1x288.BroadcastsInDim S64x2048x288 (![0, 1, 2] : Fin 3 → Fin S64x2048x288.rank)
  reducesTo_S64x2048x288_S64x2048_d2 : S64x2048x288.ReducesTo [2] S64x2048
  bcast_S64x1_S64x2048_0_1 : S64x1.BroadcastsInDim S64x2048 (![0, 1] : Fin 2 → Fin S64x2048.rank)
  bcast_S_S64x2048x288 : S_.BroadcastsInDim S64x2048x288 (![] : Fin 0 → Fin S64x2048x288.rank)
  concatenates_S64x2048_S64x2048_S64x4096_d1 : Shape.Concatenates [S64x2048, S64x2048] S64x4096 1

variable [Facts₀]

class Facts : Prop extends Facts₀ where

variable [Facts]
-- ==== Proof.KPayload.lean ====
/-
  The kernel body's two stored values, read at one element of the output tile, at the ideal instance.

  A grid point is a pair (batch tile, channel tile); the body loads a tile `x0` of the flattened input,
  [32, 128, 288] (batch, channel, pixel), and a tile `x1` of the stacked float masks, [32, 2, 288] (batch, slot, pixel;
  slot 0 the identity mask, slot 1 the cloth mask). Channel tiles 0 … 15 are the identity half of the channels,
  16 … 31 the cloth half, and the body picks the mask slot by comparing the channel tile's number with 16. With
  `w r` the picked mask row at pixel `r`, element (p, q) of the first stored tile is the sum over the 288 pixels of
  `x0 (p, q, r) * w r`, and of the second the maximum, from -∞, over the pixels of `x0 (p, q, r)` where `w r ≠ 0` and of -∞
  elsewhere. Shape casts between equal shapes are the identity; the broadcast of the [32, 1, 288] mask row along the
  channel axis reads the row at channel 0.
-/
import proofs.«113137_j41695542510189_2_alg».proof.Proof.Gen.KernelIdeal.Skeleton
import Idealize.ShloMosaic.Lib.ValueIdx
import Idealize.ShloMosaic.Lib.Pipeline.Value
import Idealize.ShloMosaic.PureOps.Ideal.Laws

noncomputable section

open Idealize.ShloMosaic Idealize.ShloMosaic.ValueIdx
open scoped BigOperators

namespace Cert.KernelIdeal.Body

open Cert.KernelIdeal Cert.KernelIdeal.Gen

/-- The condition bit of a channel tile: "tile number ≥ 16" as a signed 32-bit comparison, for the 32 tile numbers. -/
theorem tile_bit_fin : ∀ n : Fin 32, Scalar.cmpi .sge (BitVec.ofNat 32 n.val) 16#32 = if 16 ≤ n.val then 1#1 else 0#1 := by
  decide

theorem tile_bit (n : Nat) (h : n < 32) : Scalar.cmpi .sge (BitVec.ofNat 32 n) 16#32 = if 16 ≤ n then 1#1 else 0#1 :=
  tile_bit_fin ⟨n, h⟩

/-- The reduced index with the pixel coordinate put back is (p, q, r). -/
theorem lift_eq (p : Fin 32) (q : Fin 128) (k : Fin 288) :
    (reduces_S32x128x288_S32x128 : S32x128x288.Reduces [2] S32x128).lift (ix2 p q) k = ix3 p q k := by
  funext a
  apply Fin.ext
  match a with
  | ⟨0, _⟩ => rfl
  | ⟨1, _⟩ => rfl
  | ⟨2, _⟩ => rfl

/-- The picked mask row, broadcast over the channels, at (p, q, r): slot 1 for the cloth tiles, slot 0 for the others. -/
theorem mask_at (i : grid0.Coords) (x1 : Vec Ideal S32x2x288 .f32) (p : Fin 32) (q : Fin 128) (r : Fin 288) :
    k0_pay2 i x1 (ix3 p q r) = if 16 ≤ (i 1).val then x1 (ix3 p 1 r) else x1 (ix3 p 0 r) := by
  unfold k0_pay2
  simp only [shapeCast_self]
  refine (broadcastTo_apply _ broadcasts_S32x1x288_S32x128x288 (ix3 p q r) (ix3 p 0 r) (fun a => ?_)).trans ?_
  · match a with
    | ⟨0, _⟩ => show p.val = if (32 : Nat) = 1 then 0 else p.val; rw [if_neg (by decide)]
    | ⟨1, _⟩ => show 0 = if (1 : Nat) = 1 then 0 else q.val; rw [if_pos rfl]
    | ⟨2, _⟩ => show r.val = if (288 : Nat) = 1 then 0 else r.val; rw [if_neg (by decide)]
  · rw [tile_bit (i 1).val (i 1).isLt]
    by_cases h : 16 ≤ (i 1).val
    · rw [if_pos h, if_pos h, select_one]
      exact extractStridedSlice_apply _ x1 slices_S32x2x288_o0_1_0_S32x1x288 (ix3 p 0 r) (ix3 p 1 r) (fun a => by
        match a with
        | ⟨0, _⟩ => show p.val = 0 + p.val; omega
        | ⟨1, _⟩ => show 1 = 1 + 0; rfl
        | ⟨2, _⟩ => show r.val = 0 + r.val; omega)
    · rw [if_neg h, if_neg h, select_zero]
      exact extractStridedSlice_apply _ x1 slices_S32x2x288_o0_0_0_S32x1x288 (ix3 p 0 r) (ix3 p 0 r) (fun a => by
        match a with
        | ⟨0, _⟩ => show p.val = 0 + p.val; omega
        | ⟨1, _⟩ => show 0 = 0 + 0; rfl
        | ⟨2, _⟩ => show r.val = 0 + r.val; omega)

/-- The first stored tile at (p, q): the masked sum over the pixels. -/
theorem sum_at (i : grid0.Coords) (x0 : Vec Ideal S32x128x288 .f32) (x1 : Vec Ideal S32x2x288 .f32) (p : Fin 32) (q : Fin 128) :
    k0_pay3 i x0 x1 (ix2 p q)
      = ∑ r : Fin 288, x0 (ix3 p q r) * (if 16 ≤ (i 1).val then x1 (ix3 p 1 r) else x1 (ix3 p 0 r)) := by
  unfold k0_pay3 k0_pay1
  simp only [shapeCast_self]
  refine (Ideal.multiReduction_add_single (mulf x0 (k0_pay2 i x1)) 0x00000000#32 reduces_S32x128x288_S32x128 (.inl rfl) rfl (ix2 p q)).trans ?_
  refine Finset.sum_congr rfl (fun (r : Fin 288) _ => ?_)
  show x0 ((reduces_S32x128x288_S32x128 : S32x128x288.Reduces [2] S32x128).lift (ix2 p q) r)
      * k0_pay2 i x1 ((reduces_S32x128x288_S32x128 : S32x128x288.Reduces [2] S32x128).lift (ix2 p q) r) = _
  rw [lift_eq p q r, mask_at i x1 p q r]

/-- The second stored tile at (p, q): the maximum, from -∞, over the pixels of the input where the mask is not zero. -/
theorem max_at (i : grid0.Coords) (x0 : Vec Ideal S32x128x288 .f32) (x1 : Vec Ideal S32x2x288 .f32) (p : Fin 32) (q : Fin 128) :
    k0_pay4 i x0 x1 (ix2 p q)
      = (Finset.univ : Finset (Fin 288)).fold max (FloatOps.ofBits (F := Ideal) .f32 0xFF800000#32) (fun r =>
          Scalar.select (FloatOps.cmpf .one (if 16 ≤ (i 1).val then x1 (ix3 p 1 r) else x1 (ix3 p 0 r)) (Scalar.ofBits (F := Ideal) .f32 0x00000000#32))
            (x0 (ix3 p q r)) (Scalar.ofBits (F := Ideal) .f32 0xFF800000#32)) := by
  unfold k0_pay4 k0_pay1
  simp only [shapeCast_self]
  refine (Ideal.multiReduction_maximumf_single
    (select (cmpf .one (k0_pay2 i x1) (broadcast S32x128x288 (Scalar.ofBits (F := Ideal) .f32 0x00000000#32))) x0
      (broadcast S32x128x288 (Scalar.ofBits (F := Ideal) .f32 0xFF800000#32)))
    0xFF800000#32 reduces_S32x128x288_S32x128 (.inl rfl) rfl (ix2 p q)).trans ?_
  refine congrArg (fun f => (Finset.univ : Finset (Fin 288)).fold max (FloatOps.ofBits (F := Ideal) .f32 0xFF800000#32) f)
    (funext fun (r : Fin 288) => ?_)
  show Scalar.select (FloatOps.cmpf .one
      (k0_pay2 i x1 ((reduces_S32x128x288_S32x128 : S32x128x288.Reduces [2] S32x128).lift (ix2 p q) r))
      (Scalar.ofBits (F := Ideal) .f32 0x00000000#32))
    (x0 ((reduces_S32x128x288_S32x128 : S32x128x288.Reduces [2] S32x128).lift (ix2 p q) r))
    (Scalar.ofBits (F := Ideal) .f32 0xFF800000#32) = _
  rw [lift_eq p q r, mask_at i x1 p q r]

end Cert.KernelIdeal.Body

end
-- ==== Proof.KBlocks.lean ====
/-
  From blocks to arrays: what the kernel's two output arrays hold after the grid has run, at the ideal instance.

  The grid has 2 × 32 points (batch tile, channel tile). At point (tb, tc) the input window's block is rows
  32·tb … 32·tb+31, channels 128·tc … 128·tc+127, all 288 pixels of the flattened input; the mask window's block is the same
  rows of the stacked masks, both slots; and each output window's block is the same rows and channels of its [64, 4096]
  array. Every point writes both of its output blocks back, and the 64 blocks tile the arrays. An element (b, ch) of an
  output array therefore lies in the block of the point (b / 32, ch / 128), its channel tile number is at least 16 exactly
  when ch ≥ 2048, and the arrays end as ONE function each of the two arrays the region finds:
    sums  (b, ch) = Σ_r X (b, ch, r) · M (b, s, r)
    maxes (b, ch) = max over r, from -∞, of X (b, ch, r) where M (b, s, r) ≠ 0 and of -∞ elsewhere,
  with s = 1 for ch ≥ 2048 and s = 0 below.
-/
import proofs.«113137_j41695542510189_2_alg».proof.Proof.FrameKernelIdeal
import proofs.«113137_j41695542510189_2_alg».proof.Proof.KPayload
import Idealize.ShloMosaic.Lib.ValueIdx
import Idealize.ShloMosaic.Lib.Pipeline.Value

noncomputable section

open Idealize.ShloMosaic Idealize.ShloMosaic.TcCoe Idealize.ShloMosaic.ValueIdx Idealize.SL.Sem
open Idealize.ShloMosaic.Pipeline (Dat)
open scoped BigOperators

namespace Cert.KernelIdeal.Blocks

open Cert.KernelIdeal Cert.KernelIdeal.Gen Cert.KernelIdeal.GenP Cert.KernelIdeal.Body

variable (m : (ℓ : Loc nD τ sig) → Buf (Elt Ideal) ℓ)

theorem hz2 : (![0, 0] : Fin 2 → Nat) = fun _ => 0 := funext fun a => by fin_cases a <;> rfl
theorem hz3 : (![0, 0, 0] : Fin 3 → Nat) = fun _ => 0 := funext fun a => by fin_cases a <;> rfl

/-- The mask value channel `ch` of row `b` uses at pixel `r`: slot 1 from channel 2048 on, slot 0 below. -/
def pick (M : S64x2x288.Idx → EReal) (b : Fin 64) (ch : Fin 4096) (r : Fin 288) : EReal :=
  if 2048 ≤ ch.val then M (ix3 b 1 r) else M (ix3 b 0 r)

/-- The masked sum over the pixels, at row `b` and channel `ch`. -/
def sumAt (X : S64x4096x288.Idx → EReal) (M : S64x2x288.Idx → EReal) (b : Fin 64) (ch : Fin 4096) : EReal :=
  ∑ r : Fin 288, X (ix3 b ch r) * pick M b ch r

/-- The masked maximum over the pixels, from -∞, at row `b` and channel `ch`. -/
def maxAt (X : S64x4096x288.Idx → EReal) (M : S64x2x288.Idx → EReal) (b : Fin 64) (ch : Fin 4096) : EReal :=
  (Finset.univ : Finset (Fin 288)).fold max (FloatOps.ofBits (F := Ideal) .f32 0xFF800000#32) (fun r =>
    Scalar.select (FloatOps.cmpf .one (pick M b ch r) (Scalar.ofBits (F := Ideal) .f32 0x00000000#32))
      (X (ix3 b ch r)) (Scalar.ofBits (F := Ideal) .f32 0xFF800000#32))

/-- The two whole arrays. -/
def sumArr (X : S64x4096x288.Idx → EReal) (M : S64x2x288.Idx → EReal) : S64x4096.Idx → EReal := fun i => sumAt X M (i 0) (i 1)
def maxArr (X : S64x4096x288.Idx → EReal) (M : S64x2x288.Idx → EReal) : S64x4096.Idx → EReal := fun i => maxAt X M (i 0) (i 1)

/-- The printed index maps, decided over the 64 grid points: the input block moves with the output block on rows and
    channels, the mask block on rows only, both outputs move together, and the channel tile number is the output's
    channel block index. -/
theorem idx_facts : ∀ t : Fin cfg0.N,
    win0_0.index t (0 : Fin 3) = win0_2.index t (0 : Fin 2) ∧ win0_0.index t (1 : Fin 3) = win0_2.index t (1 : Fin 2)
    ∧ win0_0.index t (2 : Fin 3) = 0
    ∧ win0_1.index t (0 : Fin 3) = win0_2.index t (0 : Fin 2) ∧ win0_1.index t (1 : Fin 3) = 0 ∧ win0_1.index t (2 : Fin 3) = 0
    ∧ (grid0.coords t (1 : Fin 2)).val = win0_2.index t (1 : Fin 2)
    ∧ win0_2.index t (0 : Fin 2) ≤ 1 ∧ win0_2.index t (1 : Fin 2) ≤ 31
    ∧ win0_3.index t (0 : Fin 2) = win0_2.index t (0 : Fin 2) ∧ win0_3.index t (1 : Fin 2) = win0_2.index t (1 : Fin 2) :=
  (by decide +kernel : ∀ t : Fin grid0.N, _)

/-- Every (row block, channel block) pair is some point's. -/
theorem idx_onto : ∀ (q0 : Fin 2) (q1 : Fin 32), ∃ t : Fin cfg0.N, win0_2.index t (0 : Fin 2) = q0.val ∧ win0_2.index t (1 : Fin 2) = q1.val :=
  (by decide +kernel : ∀ (q0 : Fin 2) (q1 : Fin 32), ∃ t : Fin grid0.N, win0_2.index t (0 : Fin 2) = q0.val ∧ win0_2.index t (1 : Fin 2) = q1.val)

/-- The input block at point `t`, element (p, q, r), is the flattened input at the element the block's offsets give. -/
theorem iblk0_at (c : Dev nD) (t : Fin cfg0.N) (p : Fin 32) (q : Fin 128) (r : Fin 288) (k : S64x4096x288.Idx)
    (h0 : (k 0).val = win0_0.index t (0 : Fin 3) * 32 + p.val) (h1 : (k 1).val = win0_0.index t (1 : Fin 3) * 128 + q.val)
    (h2 : (k 2).val = win0_0.index t (2 : Fin 3) * 288 + r.val) :
    (iblk m c 0 t : Vec Ideal S32x128x288 .f32) (ix3 p q r) = (V m c main_v14 : S64x4096x288.Idx → EReal) k := by
  show V m c main_v14 (((cfg0.win 0).blk t).view.emb (ix3 p q r)) = V m c main_v14 k
  refine congrArg (V m c main_v14) ?_
  funext a
  apply Fin.ext
  match a with
  | ⟨0, _⟩ => show win0_0.index t (0 : Fin 3) * 32 + 1 * p.val = (k 0).val; rw [h0]; omega
  | ⟨1, _⟩ => show win0_0.index t (1 : Fin 3) * 128 + 1 * q.val = (k 1).val; rw [h1]; omega
  | ⟨2, _⟩ => show win0_0.index t (2 : Fin 3) * 288 + 1 * r.val = (k 2).val; rw [h2]; omega

/-- The mask block at point `t`, element (p, s, r), is the stacked masks at the element the block's offsets give. -/
theorem iblk1_at (c : Dev nD) (t : Fin cfg0.N) (p : Fin 32) (s : Fin 2) (r : Fin 288) (k : S64x2x288.Idx)
    (h0 : (k 0).val = win0_1.index t (0 : Fin 3) * 32 + p.val) (h1 : (k 1).val = win0_1.index t (1 : Fin 3) * 2 + s.val)
    (h2 : (k 2).val = win0_1.index t (2 : Fin 3) * 288 + r.val) :
    (iblk m c 1 t : Vec Ideal S32x2x288 .f32) (ix3 p s r) = (V m c main_v25 : S64x2x288.Idx → EReal) k := by
  show V m c main_v25 (((cfg0.win 1).blk t).view.emb (ix3 p s r)) = V m c main_v25 k
  refine congrArg (V m c main_v25) ?_
  funext a
  apply Fin.ext
  match a with
  | ⟨0, _⟩ => show win0_1.index t (0 : Fin 3) * 32 + 1 * p.val = (k 0).val; rw [h0]; omega
  | ⟨1, _⟩ => show win0_1.index t (1 : Fin 3) * 2 + 1 * s.val = (k 1).val; rw [h1]; omega
  | ⟨2, _⟩ => show win0_1.index t (2 : Fin 3) * 288 + 1 * r.val = (k 2).val; rw [h2]; omega

/-- The array row and channel that element (p, q) of the output block at point `t` is. -/
def rowOf (t : Fin cfg0.N) (p : Fin 32) : Fin 64 :=
  ⟨win0_2.index t (0 : Fin 2) * 32 + p.val, by have := (idx_facts t).2.2.2.2.2.2.2.1; omega⟩
def chOf (t : Fin cfg0.N) (q : Fin 128) : Fin 4096 :=
  ⟨win0_2.index t (1 : Fin 2) * 128 + q.val, by have := (idx_facts t).2.2.2.2.2.2.2.2.1; omega⟩
def outIdx (t : Fin cfg0.N) (p : Fin 32) (q : Fin 128) : S64x4096.Idx := ix2 (rowOf t p) (chOf t q)

/-- The mask value the body picks at point `t` is the one the channel's half asks for. -/
theorem pick_at (c : Dev nD) (t : Fin cfg0.N) (p : Fin 32) (q : Fin 128) (r : Fin 288) :
    (if 16 ≤ (grid0.coords t (1 : Fin 2)).val then (iblk m c 1 t : Vec Ideal S32x2x288 .f32) (ix3 p 1 r)
      else (iblk m c 1 t : Vec Ideal S32x2x288 .f32) (ix3 p 0 r))
    = pick (V m c main_v25) (rowOf t p) (chOf t q) r := by
  obtain ⟨e00, e01, e02, e10, e11, e12, ec, b0, b1, _, _⟩ := idx_facts t
  unfold pick
  have hq : q.val < 128 := q.isLt
  by_cases h : 16 ≤ (grid0.coords t (1 : Fin 2)).val
  · rw [if_pos h, if_pos (show 2048 ≤ (chOf t q).val by show 2048 ≤ win0_2.index t (1 : Fin 2) * 128 + q.val; omega)]
    exact iblk1_at m c t p 1 r _ (show win0_2.index t (0 : Fin 2) * 32 + p.val = _ by rw [e10]) (show 1 = _ by rw [e11]; rfl)
      (show r.val = _ by rw [e12]; omega)
  · rw [if_neg h, if_neg (show ¬ 2048 ≤ (chOf t q).val by show ¬ 2048 ≤ win0_2.index t (1 : Fin 2) * 128 + q.val; omega)]
    exact iblk1_at m c t p 0 r _ (show win0_2.index t (0 : Fin 2) * 32 + p.val = _ by rw [e10]) (show 0 = _ by rw [e11]; rfl)
      (show r.val = _ by rw [e12]; omega)

/-- The input element the body multiplies at point `t`. -/
theorem x_at (c : Dev nD) (t : Fin cfg0.N) (p : Fin 32) (q : Fin 128) (r : Fin 288) :
    (iblk m c 0 t : Vec Ideal S32x128x288 .f32) (ix3 p q r) = (V m c main_v14 : S64x4096x288.Idx → EReal) (ix3 (rowOf t p) (chOf t q) r) := by
  obtain ⟨e00, e01, e02, _⟩ := idx_facts t
  exact iblk0_at m c t p q r _ (show win0_2.index t (0 : Fin 2) * 32 + p.val = _ by rw [e00])
    (show win0_2.index t (1 : Fin 2) * 128 + q.val = _ by rw [e01]) (show r.val = _ by rw [e02]; omega)

/-- WHAT POINT `t` WRITES BACK into the sums' array is block `t` of the whole-array masked sum. -/
theorem flushed2_eq (c : Dev nD) (t : Fin cfg0.N) :
    (dats m 0 c).flushed 2 t = ((cfg0.win 2).blk t).view.read (Elt Ideal) (sumArr (V m c main_v14) (V m c main_v25)) := by
  show (cfg0.win 2).cut (grid0.coords t) ((dats m 0 c).after 2 t) = _
  rw [after0_2]
  unfold out0_2
  rw [View.canon_unit_zero hz2]
  simp only [View.ld_unit_zero (S := S32x128x288) hz3, View.ld_unit_zero (S := S32x2x288) hz3]
  funext j
  obtain ⟨p, q, rfl⟩ : ∃ (p : Fin 32) (q : Fin 128), j = ix2 p q := ⟨j 0, j 1, eq_ix2 j⟩
  show k0_pay3 (grid0.coords t) (iblk m c 0 t) (iblk m c 1 t) (ix2 p q)
    = sumArr (V m c main_v14) (V m c main_v25) (((cfg0.win 2).blk t).view.emb (ix2 p q))
  have hidx : ((cfg0.win 2).blk t).view.emb (ix2 p q) = outIdx t p q := by
    funext a
    apply Fin.ext
    match a with
    | ⟨0, _⟩ => show win0_2.index t (0 : Fin 2) * 32 + 1 * p.val = win0_2.index t (0 : Fin 2) * 32 + p.val; omega
    | ⟨1, _⟩ => show win0_2.index t (1 : Fin 2) * 128 + 1 * q.val = win0_2.index t (1 : Fin 2) * 128 + q.val; omega
  rw [hidx]
  refine (sum_at (grid0.coords t) (iblk m c 0 t) (iblk m c 1 t) p q).trans ?_
  show _ = sumAt (V m c main_v14) (V m c main_v25) (rowOf t p) (chOf t q)
  unfold sumAt
  refine Finset.sum_congr rfl (fun (r : Fin 288) _ => ?_)
  rw [pick_at m c t p q r, x_at m c t p q r]

/-- WHAT POINT `t` WRITES BACK into the maxima's array is block `t` of the whole-array masked maximum. -/
theorem flushed3_eq (c : Dev nD) (t : Fin cfg0.N) :
    (dats m 0 c).flushed 3 t = ((cfg0.win 3).blk t).view.read (Elt Ideal) (maxArr (V m c main_v14) (V m c main_v25)) := by
  show (cfg0.win 3).cut (grid0.coords t) ((dats m 0 c).after 3 t) = _
  rw [after0_3]
  unfold out0_3
  rw [View.canon_unit_zero hz2]
  simp only [View.ld_unit_zero (S := S32x128x288) hz3, View.ld_unit_zero (S := S32x2x288) hz3]
  funext j
  obtain ⟨p, q, rfl⟩ : ∃ (p : Fin 32) (q : Fin 128), j = ix2 p q := ⟨j 0, j 1, eq_ix2 j⟩
  show k0_pay4 (grid0.coords t) (iblk m c 0 t) (iblk m c 1 t) (ix2 p q)
    = maxArr (V m c main_v14) (V m c main_v25) (((cfg0.win 3).blk t).view.emb (ix2 p q))
  obtain ⟨_, _, _, _, _, _, _, _, _, e30, e31⟩ := idx_facts t
  have hidx : ((cfg0.win 3).blk t).view.emb (ix2 p q) = outIdx t p q := by
    funext a
    apply Fin.ext
    match a with
    | ⟨0, _⟩ => show win0_3.index t (0 : Fin 2) * 32 + 1 * p.val = win0_2.index t (0 : Fin 2) * 32 + p.val; rw [e30]; omega
    | ⟨1, _⟩ => show win0_3.index t (1 : Fin 2) * 128 + 1 * q.val = win0_2.index t (1 : Fin 2) * 128 + q.val; rw [e31]; omega
  rw [hidx]
  refine (max_at (grid0.coords t) (iblk m c 0 t) (iblk m c 1 t) p q).trans ?_
  show _ = maxAt (V m c main_v14) (V m c main_v25) (rowOf t p) (chOf t q)
  unfold maxAt
  refine congrArg (fun f => (Finset.univ : Finset (Fin 288)).fold max (FloatOps.ofBits (F := Ideal) .f32 0xFF800000#32) f)
    (funext fun (r : Fin 288) => ?_)
  rw [pick_at m c t p q r, x_at m c t p q r]

/-- An element of a [64, 4096] array is in point `t`'s output block iff each coordinate is in the block's range. -/
theorem mem_blk2 (t : Fin cfg0.N) (i : S64x4096.Idx) :
    i ∈ ((cfg0.win 2).blk t).view.set ↔ ∀ a : Fin 2, win0_2.index t a * S32x128.size a ≤ (i a).val ∧ (i a).val < win0_2.index t a * S32x128.size a + S32x128.size a := by
  show i ∈ ((View.whole main_v32_0).slice (win0_2.rect t)).set ↔ _
  rw [View.set_slice_whole, Rect.mem_set_unit]
  exact Iff.rfl

theorem mem_blk3 (t : Fin cfg0.N) (i : S64x4096.Idx) :
    i ∈ ((cfg0.win 3).blk t).view.set ↔ ∀ a : Fin 2, win0_3.index t a * S32x128.size a ≤ (i a).val ∧ (i a).val < win0_3.index t a * S32x128.size a + S32x128.size a := by
  show i ∈ ((View.whole main_v32_1).slice (win0_3.rect t)).set ↔ _
  rw [View.set_slice_whole, Rect.mem_set_unit]
  exact Iff.rfl

/-- The blocks cover the sums' array: element (b, ch) is in the block of point (b / 32, ch / 128). -/
theorem cover2 (i : S64x4096.Idx) : ∃ t : Fin cfg0.N, (cfg0.win 2).flush t = true ∧ i ∈ ((cfg0.win 2).blk t).view.set := by
  have hi0 : (i 0).val < 64 := (i 0).isLt
  have hi1 : (i 1).val < 4096 := (i 1).isLt
  obtain ⟨t, q0, q1⟩ := idx_onto ⟨(i 0).val / 32, by omega⟩ ⟨(i 1).val / 128, by omega⟩
  refine ⟨t, flush0_2 t, ?_⟩
  rw [mem_blk2]
  intro a
  match a with
  | ⟨0, _⟩ => show win0_2.index t (0 : Fin 2) * 32 ≤ (i 0).val ∧ (i 0).val < win0_2.index t (0 : Fin 2) * 32 + 32; rw [q0]; show (i 0).val / 32 * 32 ≤ (i 0).val ∧ (i 0).val < (i 0).val / 32 * 32 + 32; omega
  | ⟨1, _⟩ => show win0_2.index t (1 : Fin 2) * 128 ≤ (i 1).val ∧ (i 1).val < win0_2.index t (1 : Fin 2) * 128 + 128; rw [q1]; show (i 1).val / 128 * 128 ≤ (i 1).val ∧ (i 1).val < (i 1).val / 128 * 128 + 128; omega

/-- And the maxima's array likewise. -/
theorem cover3 (i : S64x4096.Idx) : ∃ t : Fin cfg0.N, (cfg0.win 3).flush t = true ∧ i ∈ ((cfg0.win 3).blk t).view.set := by
  have hi0 : (i 0).val < 64 := (i 0).isLt
  have hi1 : (i 1).val < 4096 := (i 1).isLt
  obtain ⟨t, q0, q1⟩ := idx_onto ⟨(i 0).val / 32, by omega⟩ ⟨(i 1).val / 128, by omega⟩
  obtain ⟨_, _, _, _, _, _, _, _, _, e30, e31⟩ := idx_facts t
  refine ⟨t, flush0_3 t, ?_⟩
  rw [mem_blk3]
  intro a
  match a with
  | ⟨0, _⟩ => show win0_3.index t (0 : Fin 2) * 32 ≤ (i 0).val ∧ (i 0).val < win0_3.index t (0 : Fin 2) * 32 + 32; rw [e30, q0]; show (i 0).val / 32 * 32 ≤ (i 0).val ∧ (i 0).val < (i 0).val / 32 * 32 + 32; omega
  | ⟨1, _⟩ => show win0_3.index t (1 : Fin 2) * 128 ≤ (i 1).val ∧ (i 1).val < win0_3.index t (1 : Fin 2) * 128 + 128; rw [e31, q1]; show (i 1).val / 128 * 128 ≤ (i 1).val ∧ (i 1).val < (i 1).val / 128 * 128 + 128; omega

/-- THE ARRAYS after the region: the whole-array masked sum and masked maximum of the arrays the region finds. -/
theorem final2 (c : Dev nD) : (dats m 0 c).arrAt 2 cfg0.N = sumArr (V m c main_v14) (V m c main_v25) :=
  (dats m 0 c).arrAt_eq_of_cover 2 (sumArr (V m c main_v14) (V m c main_v25)) (fun t _ => flushed2_eq m c t) cover2

theorem final3 (c : Dev nD) : (dats m 0 c).arrAt 3 cfg0.N = maxArr (V m c main_v14) (V m c main_v25) :=
  (dats m 0 c).arrAt_eq_of_cover 3 (maxArr (V m c main_v14) (V m c main_v25)) (fun t _ => flushed3_eq m c t) cover3

end Cert.KernelIdeal.Blocks

end
-- ==== Proof.KHost.lean ====
/-
  The idealized kernel program's host side, around the region.

  Before the region, 45 host operations: 32 compute the boolean identity mask and effective cloth mask from the label
  image and the flattening of the float input, and the last 13 convert the two masks to floats, stack them along a new
  slot axis ([64, 2, 288]: slot 0 identity, slot 1 cloth) for the region, and count each mask (the count, or one if that
  is larger). The contents after the first 32 are left as they are here: the stacked masks and the two counts are read
  as functions of whatever the two boolean masks hold. After the region, 10 host operations cut each of the region's two
  arrays (sums, maxima; [64, 4096]) into its two channel halves, divide a half's sums by that half's count, and lay a
  half's maxima and averages side by side along the channel axis: the program's two results.
-/
import proofs.«113137_j41695542510189_2_alg».proof.Proof.FrameKernelIdeal
import proofs.«113137_j41695542510189_2_alg».proof.Proof.KBlocks
import Idealize.ShloMosaic.Lib.StableHlo.Run
import Idealize.ShloMosaic.Lib.Pipeline.Frame
import Idealize.ShloMosaic.Lib.Pipeline.FrameSuffix

noncomputable section

open Idealize.ShloMosaic Idealize.ShloMosaic.TcCoe Idealize.SL.Sem Idealize.ShloMosaic.StableHlo

namespace Cert.KernelIdeal.Host

open Cert.KernelIdeal Cert.KernelIdeal.Gen Cert.KernelIdeal.GenP Cert.KernelIdeal.Blocks

variable (m : (ℓ : Loc nD τ sig) → Buf (Elt Ideal) ℓ)

/-- The contents after the first 32 host operations: the boolean masks and the flattened input are in place. -/
def W (c : Dev nD) : Valuation τ sig (Elt Ideal) := after hostOps0_1 (after hostOps0 (fun b => m (c, b)))

/-- What the region finds is the last 13 operations' results over those contents. -/
theorem V0_eq (c : Dev nD) : V0 m c = after hostOps0_2 (W m c) := by
  unfold W
  show after (List.flatten [hostOps0, hostOps0_1, hostOps0_2]) (fun b => m (c, b)) = _
  rw [List.flatten_cons, List.flatten_cons, List.flatten_cons, List.flatten_nil, List.append_nil, after_append, after_append]

/-- The two boolean masks and the flattened input, as the first 32 operations leave them. -/
def idm (c : Dev nD) : IVec S64x1x288 1 := W m c (Proc.devRef .tc main_v18)
def clm (c : Dev nD) : IVec S64x1x288 1 := W m c (Proc.devRef .tc main_v22)
def xflat (c : Dev nD) : FVec Ideal S64x4096x288 .f32 := W m c (Proc.devRef .tc main_v14)

/-- A mask's count: its float sum over the pixels, or one if that is larger. -/
def count (mk : IVec S64x1x288 1) : FVec Ideal S64x1 .f32 :=
  maximumf (Host.reduceAdd (uitofp (F := Ideal) .f32 mk) (constant S_ .f32 0x00000000#32) reducesTo_S64x1x288_S64x1_d2 h_S_)
    (broadcastInDim S64x1 ![] bcast_S_S64x1 (constant S_ .f32 0x3F800000#32))

/-- The stacked float masks. -/
def stacked (a b : IVec S64x1x288 1) : FVec Ideal S64x2x288 .f32 :=
  concatenate S64x2x288 1 [⟨S64x1x288, uitofp (F := Ideal) .f32 a⟩, ⟨S64x1x288, uitofp (F := Ideal) .f32 b⟩] concatenates_S64x1x288_S64x1x288_S64x2x288_d1

theorem V14_eq (c : Dev nD) : V m c main_v14 = xflat m c := by
  show V0 m c (Proc.devRef .tc main_v14) = _
  rw [V0_eq]; unfold xflat
  generalize W m c = w
  after_results_simp

theorem V25_eq (c : Dev nD) : V m c main_v25 = stacked (idm m c) (clm m c) := by
  show V0 m c (Proc.devRef .tc main_v25) = _
  rw [V0_eq]; unfold idm clm stacked
  generalize W m c = w
  after_results_simp <;> rfl

theorem V28_eq (c : Dev nD) : V m c main_v28 = count (idm m c) := by
  show V0 m c (Proc.devRef .tc main_v28) = _
  rw [V0_eq]; unfold idm count
  generalize W m c = w
  after_results_simp <;> rfl

theorem V31_eq (c : Dev nD) : V m c main_v31 = count (clm m c) := by
  show V0 m c (Proc.devRef .tc main_v31) = _
  rw [V0_eq]; unfold clm count
  generalize W m c = w
  after_results_simp <;> rfl

/-- One result of the program from the region's two arrays and a count: the maxima's channel half at offset `off`,
    then that half's sums divided by the count. -/
def halfOut (off : Fin 2 → Nat) (hs : S64x4096.Slices off S64x2048) (sums maxes : FVec Ideal S64x4096 .f32) (cnt : FVec Ideal S64x1 .f32) :
    FVec Ideal S64x4096 .f32 :=
  concatenate S64x4096 1 [⟨S64x2048, extractStridedSlice S64x2048 off maxes hs⟩,
    ⟨S64x2048, Host.divf (F := Ideal) (extractStridedSlice S64x2048 off sums hs) (broadcastInDim S64x2048 ![0, 1] bcast_S64x1_S64x2048_0_1 cnt)⟩]
    concatenates_S64x2048_S64x2048_S64x4096_d1

/-- The 10 operations after the region, from any contents holding the region's two arrays and the two counts. -/
theorem tail41_of (U : Valuation τ sig (Elt Ideal)) (sums maxes : FVec Ideal S64x4096 .f32) (cnt : FVec Ideal S64x1 .f32)
    (h2 : U (Proc.devRef .tc main_v32_0) = sums) (h3 : U (Proc.devRef .tc main_v32_1) = maxes) (hc : U (Proc.devRef .tc main_v28) = cnt) :
    after hostOps1 U (Proc.devRef .tc main_v41) = halfOut ![0, 0] slices_S64x4096_S64x2048_0_0 sums maxes cnt := by
  subst h2 h3 hc
  unfold halfOut
  after_results_simp <;> rfl

theorem tail42_of (U : Valuation τ sig (Elt Ideal)) (sums maxes : FVec Ideal S64x4096 .f32) (cnt : FVec Ideal S64x1 .f32)
    (h2 : U (Proc.devRef .tc main_v32_0) = sums) (h3 : U (Proc.devRef .tc main_v32_1) = maxes) (hc : U (Proc.devRef .tc main_v31) = cnt) :
    after hostOps1 U (Proc.devRef .tc main_v42) = halfOut ![0, 2048] slices_S64x4096_S64x2048_0_2048 sums maxes cnt := by
  subst h2 h3 hc
  unfold halfOut
  after_results_simp <;> rfl

/-- The region's arrays and the counts in the contents the lines after the region start from. -/
theorem with2 (c : Dev nD) :
    Pipeline.withArrays (cfgs 0).spec c (V0 m c) (fun w => (dats m 0 c).arrAt w (cfgs 0).N) (Proc.devRef .tc main_v32_0)
      = sumArr (xflat m c) (stacked (idm m c) (clm m c)) :=
  ((Pipeline.withArrays_arr spec0 launch0.win.arr_inj c (V0 m c) (fun w => (dats m 0 c).arrAt w cfg0.N) 2).trans (final2 m c)).trans
    (by rw [V14_eq, V25_eq])

theorem with3 (c : Dev nD) :
    Pipeline.withArrays (cfgs 0).spec c (V0 m c) (fun w => (dats m 0 c).arrAt w (cfgs 0).N) (Proc.devRef .tc main_v32_1)
      = maxArr (xflat m c) (stacked (idm m c) (clm m c)) :=
  ((Pipeline.withArrays_arr spec0 launch0.win.arr_inj c (V0 m c) (fun w => (dats m 0 c).arrAt w cfg0.N) 3).trans (final3 m c)).trans
    (by rw [V14_eq, V25_eq])

theorem with28 (c : Dev nD) :
    Pipeline.withArrays (cfgs 0).spec c (V0 m c) (fun w => (dats m 0 c).arrAt w (cfgs 0).N) (Proc.devRef .tc main_v28) = count (idm m c) :=
  (Pipeline.withArrays_of_ne _ c (V0 m c) _ main_v28 (by exact (by decide : ∀ w, Pipeline.arrRef spec0 w ≠ main_v28))).trans (V28_eq m c)

theorem with31 (c : Dev nD) :
    Pipeline.withArrays (cfgs 0).spec c (V0 m c) (fun w => (dats m 0 c).arrAt w (cfgs 0).N) (Proc.devRef .tc main_v31) = count (clm m c) :=
  (Pipeline.withArrays_of_ne _ c (V0 m c) _ main_v31 (by exact (by decide : ∀ w, Pipeline.arrRef spec0 w ≠ main_v31))).trans (V31_eq m c)

/-- THE PROGRAM'S TWO RESULTS, as the lines after the region leave them. -/
theorem result41 (c : Dev nD) :
    Pipeline.afterTail₀ cfgs (dats m) 0 (V0 m) [hostOps1] c main_v41
      = halfOut ![0, 0] slices_S64x4096_S64x2048_0_0 (sumArr (xflat m c) (stacked (idm m c) (clm m c)))
          (maxArr (xflat m c) (stacked (idm m c) (clm m c))) (count (idm m c)) := by
  unfold Pipeline.afterTail₀
  show after hostOps1 _ (Proc.devRef .tc main_v41) = _
  exact tail41_of _ _ _ _ (with2 m c) (with3 m c) (with28 m c)

theorem result42 (c : Dev nD) :
    Pipeline.afterTail₀ cfgs (dats m) 0 (V0 m) [hostOps1] c main_v42
      = halfOut ![0, 2048] slices_S64x4096_S64x2048_0_2048 (sumArr (xflat m c) (stacked (idm m c) (clm m c)))
          (maxArr (xflat m c) (stacked (idm m c) (clm m c))) (count (clm m c)) := by
  unfold Pipeline.afterTail₀
  show after hostOps1 _ (Proc.devRef .tc main_v42) = _
  exact tail42_of _ _ _ _ (with2 m c) (with3 m c) (with31 m c)

/-- The run of the idealized kernel program, read: its two results at those terms, its arguments unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v41)
          = halfOut ![0, 0] slices_S64x4096_S64x2048_0_0 (sumArr (xflat m c) (stacked (idm m c) (clm m c)))
              (maxArr (xflat m c) (stacked (idm m c) (clm m c))) (count (idm m c))
      ∧ r.2.mem ((c.tc : Thread nD τ).loc main_v42)
          = halfOut ![0, 2048] slices_S64x4096_S64x2048_0_2048 (sumArr (xflat m c) (stacked (idm m c) (clm m c)))
              (maxArr (xflat m c) (stacked (idm m c) (clm m c))) (count (clm m c))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v41 (Pipeline.mem_restRefs_of main_v41 (by decide) (by decide))).trans (result41 m c),
     ((h c).2 main_v42 (Pipeline.mem_restRefs_of main_v42 (by decide) (by decide))).trans (result42 m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

end Cert.KernelIdeal.Host

end
-- ==== Proof.RefRun.lean ====
/-
  The reference program's run, read back in two steps.

  The reference is a straight line of 74 host operations. Its first 34 compute, from the integer label image, the
  boolean cloth mask over the 24 × 12 patches of each image (a patch is cloth when at least half of its 16 × 16 labels
  are 2 or 3), the identity mask (its complement) and the effective cloth mask (the cloth mask, or everything when no
  patch of the image is cloth), and from the float input its flattening to [64, 4096, 288] and that array's two channel
  halves. The last 40 pool each half under its mask: per image and channel the maximum over the pixels the mask keeps
  (-∞ elsewhere) and the masked sum divided by the larger of the mask's count and one; each result is the half's maxima
  followed, along the channel axis, by its averages. The run is stated with the contents after the first 34 operations
  left as they are, so that the pooling is read as a function of the masks and halves whatever they hold; the masks are
  then given once, as closed functions of the label image.
-/
import proofs.«113137_j41695542510189_2_alg».proof.Proof.Gen.ReferenceIdeal
import Idealize.ShloMosaic.Lib.StableHlo.Run
import Idealize.ShloMosaic.Lib.Pipeline.Frame

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The first 34 operations, in order: the masks, the flattened input and its two channel halves. -/
abbrev opsP : List (HloOp τ sig (Elt F)) :=
  [ binary main_arg1 main_arg1 main_v0 ((fun a b => concatenate S64x384x192 0 [⟨S32x384x192, a⟩, ⟨S32x384x192, b⟩] concatenates_S32x384x192_S32x384x192_S64x384x192_d0) : (⟨S32x384x192, .i32⟩ : BufTy).Contents (Elt F) → (⟨S32x384x192, .i32⟩ : BufTy).Contents (Elt F) → (⟨S64x384x192, .i32⟩ : BufTy).Contents (Elt F)),
    nullary main_c (constantI S_ 32 2#32),
    unary main_c main_v1 (broadcastInDim S64x384x192 ![] bcast_S_S64x384x192 : (⟨S_, .i32⟩ : BufTy).Contents (Elt F) → (⟨S64x384x192, .i32⟩ : BufTy).Contents (Elt F)),
    binary main_v0 main_v1 main_v2 (cmpi .eq : (⟨S64x384x192, .i32⟩ : BufTy).Contents (Elt F) → (⟨S64x384x192, .i32⟩ : BufTy).Contents (Elt F) → (⟨S64x384x192, .i1⟩ : BufTy).Contents (Elt F)),
    nullary main_c_0 (constantI S_ 32 3#32),
    unary main_c_0 main_v3 (broadcastInDim S64x384x192 ![] bcast_S_S64x384x192 : (⟨S_, .i32⟩ : BufTy).Contents (Elt F) → (⟨S64x384x192, .i32⟩ : BufTy).Contents (Elt F)),
    binary main_v0 main_v3 main_v4 (cmpi .eq : (⟨S64x384x192, .i32⟩ : BufTy).Contents (Elt F) → (⟨S64x384x192, .i32⟩ : BufTy).Contents (Elt F) → (⟨S64x384x192, .i1⟩ : BufTy).Contents (Elt F)),
    binary main_v2 main_v4 main_v5 (ori : (⟨S64x384x192, .i1⟩ : BufTy).Contents (Elt F) → (⟨S64x384x192, .i1⟩ : BufTy).Contents (Elt F) → (⟨S64x384x192, .i1⟩ : BufTy).Contents (Elt F)),
    unary main_v5 main_v6 (uitofp .f32 : (⟨S64x384x192, .i1⟩ : BufTy).Contents (Elt F) → (⟨S64x384x192, .f32⟩ : BufTy).Contents (Elt F)),
    reshape main_v6 main_v7 rfl shapeCasts_S64x384x192_S64x24x16x12x16,
    nullary main_cst (constant S_ .f32 0x00000000#32),
    binary main_v7 main_cst main_v8 ((fun x v => Host.reduceAdd x v reducesTo_S64x24x16x12x16_S64x24x12_d2_4 h_S_) : (⟨S64x24x16x12x16, .f32⟩ : BufTy).Contents (Elt F) → (⟨S_, .f32⟩ : BufTy).Contents (Elt F) → (⟨S64x24x12, .f32⟩ : BufTy).Contents (Elt F)),
    nullary main_cst_1 (constant S_ .f32 0x43800000#32),
    unary main_cst_1 main_v9 (broadcastInDim S64x24x12 ![] bcast_S_S64x24x12 : (⟨S_, .f32⟩ : BufTy).Contents (Elt F) → (⟨S64x24x12, .f32⟩ : BufTy).Contents (Elt F)),
    binary main_v8 main_v9 main_v10 (Host.divf : (⟨S64x24x12, .f32⟩ : BufTy).Contents (Elt F) → (⟨S64x24x12, .f32⟩ : BufTy).Contents (Elt F) → (⟨S64x24x12, .f32⟩ : BufTy).Contents (Elt F)),
    nullary main_cst_2 (constant S_ .f32 0x3F000000#32),
    unary main_cst_2 main_v11 (broadcastInDim S64x24x12 ![] bcast_S_S64x24x12 : (⟨S_, .f32⟩ : BufTy).Contents (Elt F) → (⟨S64x24x12, .f32⟩ : BufTy).Contents (Elt F)),
    binary main_v10 main_v11 main_v12 (cmpf .oge : (⟨S64x24x12, .f32⟩ : BufTy).Contents (Elt F) → (⟨S64x24x12, .f32⟩ : BufTy).Contents (Elt F) → (⟨S64x24x12, .i1⟩ : BufTy).Contents (Elt F)),
    reshape main_v12 main_v13 rfl shapeCasts_S64x24x12_S64x1x288,
    reshape main_arg0 main_v14 rfl shapeCasts_S64x4096x24x12_S64x4096x288,
    unary main_v14 main_v15 ((extractStridedSlice S64x2048x288 ![0, 0, 0] · slices_S64x4096x288_S64x2048x288_0_0_0) : (⟨S64x4096x288, .f32⟩ : BufTy).Contents (Elt F) → (⟨S64x2048x288, .f32⟩ : BufTy).Contents (Elt F)),
    unary main_v14 main_v16 ((extractStridedSlice S64x2048x288 ![0, 2048, 0] · slices_S64x4096x288_S64x2048x288_0_2048_0) : (⟨S64x4096x288, .f32⟩ : BufTy).Contents (Elt F) → (⟨S64x2048x288, .f32⟩ : BufTy).Contents (Elt F)),
    unary main_v13 main_v17 ((extui 32 · natLt_1_32) : (⟨S64x1x288, .i1⟩ : BufTy).Contents (Elt F) → (⟨S64x1x288, .i32⟩ : BufTy).Contents (Elt F)),
    nullary main_c_3 (constantI S_ 32 0#32),
    binary main_v17 main_c_3 main_v18 ((fun x v => Host.reduce IntOp.addi x v reducesTo_S64x1x288_S64x1_d2 h_S_) : (⟨S64x1x288, .i32⟩ : BufTy).Contents (Elt F) → (⟨S_, .i32⟩ : BufTy).Contents (Elt F) → (⟨S64x1, .i32⟩ : BufTy).Contents (Elt F)),
    unary main_v18 main_v19 (broadcastInDim S64x1x1 ![0, 1] bcast_S64x1_S64x1x1_0_1 : (⟨S64x1, .i32⟩ : BufTy).Contents (Elt F) → (⟨S64x1x1, .i32⟩ : BufTy).Contents (Elt F)),
    unary main_v13 main_v20 (noti : (⟨S64x1x288, .i1⟩ : BufTy).Contents (Elt F) → (⟨S64x1x288, .i1⟩ : BufTy).Contents (Elt F)),
    nullary main_c_4 (constantI S_ 32 0#32),
    unary main_c_4 main_v21 (broadcastInDim S64x1x1 ![] bcast_S_S64x1x1 : (⟨S_, .i32⟩ : BufTy).Contents (Elt F) → (⟨S64x1x1, .i32⟩ : BufTy).Contents (Elt F)),
    binary main_v19 main_v21 main_v22 (cmpi .eq : (⟨S64x1x1, .i32⟩ : BufTy).Contents (Elt F) → (⟨S64x1x1, .i32⟩ : BufTy).Contents (Elt F) → (⟨S64x1x1, .i1⟩ : BufTy).Contents (Elt F)),
    nullary main_c_5 (constantI S_ 1 1#1),
    unary main_c_5 main_v23 (broadcastInDim S64x1x288 ![] bcast_S_S64x1x288 : (⟨S_, .i1⟩ : BufTy).Contents (Elt F) → (⟨S64x1x288, .i1⟩ : BufTy).Contents (Elt F)),
    TRef.unary (TRef.of (T := ⟨S64x1x1, .i1⟩) main_v22) (TRef.of (T := ⟨S64x1x288, .i1⟩) main_call0_v0) (broadcastInDim S64x1x288 ![0, 1, 2] bcast_S64x1x1_S64x1x288_0_1_2),
    TRef.ternary (TRef.of (T := ⟨S64x1x288, .i1⟩) main_call0_v0) (TRef.of (T := ⟨S64x1x288, .i1⟩) main_v23) (TRef.of (T := ⟨S64x1x288, .i1⟩) main_v13) (TRef.of (T := ⟨S64x1x288, .i1⟩) main_v24) select ]

/-- The last 40 operations, in order: the two poolings. -/
abbrev opsS : List (HloOp τ sig (Elt F)) :=
  [ unary main_v20 main_v25 (uitofp .f32 : (⟨S64x1x288, .i1⟩ : BufTy).Contents (Elt F) → (⟨S64x1x288, .f32⟩ : BufTy).Contents (Elt F)),
    nullary main_cst_6 (constant S_ .f32 0x00000000#32),
    binary main_v25 main_cst_6 main_v26 ((fun x v => Host.reduceAdd x v reducesTo_S64x1x288_S64x1_d2 h_S_) : (⟨S64x1x288, .f32⟩ : BufTy).Contents (Elt F) → (⟨S_, .f32⟩ : BufTy).Contents (Elt F) → (⟨S64x1, .f32⟩ : BufTy).Contents (Elt F)),
    nullary main_cst_7 (constant S_ .f32 0x3F800000#32),
    unary main_cst_7 main_v27 (broadcastInDim S64x1 ![] bcast_S_S64x1 : (⟨S_, .f32⟩ : BufTy).Contents (Elt F) → (⟨S64x1, .f32⟩ : BufTy).Contents (Elt F)),
    binary main_v26 main_v27 main_v28 (maximumf : (⟨S64x1, .f32⟩ : BufTy).Contents (Elt F) → (⟨S64x1, .f32⟩ : BufTy).Contents (Elt F) → (⟨S64x1, .f32⟩ : BufTy).Contents (Elt F)),
    unary main_v25 main_v29 (broadcastInDim S64x2048x288 ![0, 1, 2] bcast_S64x1x288_S64x2048x288_0_1_2 : (⟨S64x1x288, .f32⟩ : BufTy).Contents (Elt F) → (⟨S64x2048x288, .f32⟩ : BufTy).Contents (Elt F)),
    binary main_v15 main_v29 main_v30 (mulf : (⟨S64x2048x288, .f32⟩ : BufTy).Contents (Elt F) → (⟨S64x2048x288, .f32⟩ : BufTy).Contents (Elt F) → (⟨S64x2048x288, .f32⟩ : BufTy).Contents (Elt F)),
    nullary main_cst_8 (constant S_ .f32 0x00000000#32),
    binary main_v30 main_cst_8 main_v31 ((fun x v => Host.reduceAdd x v reducesTo_S64x2048x288_S64x2048_d2 h_S_) : (⟨S64x2048x288, .f32⟩ : BufTy).Contents (Elt F) → (⟨S_, .f32⟩ : BufTy).Contents (Elt F) → (⟨S64x2048, .f32⟩ : BufTy).Contents (Elt F)),
    unary main_v28 main_v32 (broadcastInDim S64x2048 ![0, 1] bcast_S64x1_S64x2048_0_1 : (⟨S64x1, .f32⟩ : BufTy).Contents (Elt F) → (⟨S64x2048, .f32⟩ : BufTy).Contents (Elt F)),
    binary main_v31 main_v32 main_v33 (Host.divf : (⟨S64x2048, .f32⟩ : BufTy).Contents (Elt F) → (⟨S64x2048, .f32⟩ : BufTy).Contents (Elt F) → (⟨S64x2048, .f32⟩ : BufTy).Contents (Elt F)),
    nullary main_cst_9 (constant S_ .f32 0xFF800000#32),
    TRef.unary (TRef.of (T := ⟨S_, .f32⟩) main_cst_9) (TRef.of (T := ⟨S_, .f32⟩) main_call1_v0) id,
    TRef.unary (TRef.of (T := ⟨S64x1x288, .i1⟩) main_v20) (TRef.of (T := ⟨S64x2048x288, .i1⟩) main_call1_v1) (broadcastInDim S64x2048x288 ![0, 1, 2] bcast_S64x1x288_S64x2048x288_0_1_2),
    TRef.unary (TRef.of (T := ⟨S_, .f32⟩) main_call1_v0) (TRef.of (T := ⟨S64x2048x288, .f32⟩) main_call1_v2) (broadcastInDim S64x2048x288 ![] bcast_S_S64x2048x288),
    TRef.ternary (TRef.of (T := ⟨S64x2048x288, .i1⟩) main_call1_v1) (TRef.of (T := ⟨S64x2048x288, .f32⟩) main_v15) (TRef.of (T := ⟨S64x2048x288, .f32⟩) main_call1_v2) (TRef.of (T := ⟨S64x2048x288, .f32⟩) main_v34) select,
    nullary main_cst_10 (constant S_ .f32 0xFF800000#32),
    binary main_v34 main_cst_10 main_v35 ((fun x v => Host.reduce FloatOps.maximumf x v reducesTo_S64x2048x288_S64x2048_d2 h_S_) : (⟨S64x2048x288, .f32⟩ : BufTy).Contents (Elt F) → (⟨S_, .f32⟩ : BufTy).Contents (Elt F) → (⟨S64x2048, .f32⟩ : BufTy).Contents (Elt F)),
    binary main_v35 main_v33 main_v36 ((fun a b => concatenate S64x4096 1 [⟨S64x2048, a⟩, ⟨S64x2048, b⟩] concatenates_S64x2048_S64x2048_S64x4096_d1) : (⟨S64x2048, .f32⟩ : BufTy).Contents (Elt F) → (⟨S64x2048, .f32⟩ : BufTy).Contents (Elt F) → (⟨S64x4096, .f32⟩ : BufTy).Contents (Elt F)),
    unary main_v24 main_v37 (uitofp .f32 : (⟨S64x1x288, .i1⟩ : BufTy).Contents (Elt F) → (⟨S64x1x288, .f32⟩ : BufTy).Contents (Elt F)),
    nullary main_cst_11 (constant S_ .f32 0x00000000#32),
    binary main_v37 main_cst_11 main_v38 ((fun x v => Host.reduceAdd x v reducesTo_S64x1x288_S64x1_d2 h_S_) : (⟨S64x1x288, .f32⟩ : BufTy).Contents (Elt F) → (⟨S_, .f32⟩ : BufTy).Contents (Elt F) → (⟨S64x1, .f32⟩ : BufTy).Contents (Elt F)),
    nullary main_cst_12 (constant S_ .f32 0x3F800000#32),
    unary main_cst_12 main_v39 (broadcastInDim S64x1 ![] bcast_S_S64x1 : (⟨S_, .f32⟩ : BufTy).Contents (Elt F) → (⟨S64x1, .f32⟩ : BufTy).Contents (Elt F)),
    binary main_v38 main_v39 main_v40 (maximumf : (⟨S64x1, .f32⟩ : BufTy).Contents (Elt F) → (⟨S64x1, .f32⟩ : BufTy).Contents (Elt F) → (⟨S64x1, .f32⟩ : BufTy).Contents (Elt F)),
    unary main_v37 main_v41 (broadcastInDim S64x2048x288 ![0, 1, 2] bcast_S64x1x288_S64x2048x288_0_1_2 : (⟨S64x1x288, .f32⟩ : BufTy).Contents (Elt F) → (⟨S64x2048x288, .f32⟩ : BufTy).Contents (Elt F)),
    binary main_v16 main_v41 main_v42 (mulf : (⟨S64x2048x288, .f32⟩ : BufTy).Contents (Elt F) → (⟨S64x2048x288, .f32⟩ : BufTy).Contents (Elt F) → (⟨S64x2048x288, .f32⟩ : BufTy).Contents (Elt F)),
    nullary main_cst_13 (constant S_ .f32 0x00000000#32),
    binary main_v42 main_cst_13 main_v43 ((fun x v => Host.reduceAdd x v reducesTo_S64x2048x288_S64x2048_d2 h_S_) : (⟨S64x2048x288, .f32⟩ : BufTy).Contents (Elt F) → (⟨S_, .f32⟩ : BufTy).Contents (Elt F) → (⟨S64x2048, .f32⟩ : BufTy).Contents (Elt F)),
    unary main_v40 main_v44 (broadcastInDim S64x2048 ![0, 1] bcast_S64x1_S64x2048_0_1 : (⟨S64x1, .f32⟩ : BufTy).Contents (Elt F) → (⟨S64x2048, .f32⟩ : BufTy).Contents (Elt F)),
    binary main_v43 main_v44 main_v45 (Host.divf : (⟨S64x2048, .f32⟩ : BufTy).Contents (Elt F) → (⟨S64x2048, .f32⟩ : BufTy).Contents (Elt F) → (⟨S64x2048, .f32⟩ : BufTy).Contents (Elt F)),
    nullary main_cst_14 (constant S_ .f32 0xFF800000#32),
    TRef.unary (TRef.of (T := ⟨S_, .f32⟩) main_cst_14) (TRef.of (T := ⟨S_, .f32⟩) main_call2_v0) id,
    TRef.unary (TRef.of (T := ⟨S64x1x288, .i1⟩) main_v24) (TRef.of (T := ⟨S64x2048x288, .i1⟩) main_call2_v1) (broadcastInDim S64x2048x288 ![0, 1, 2] bcast_S64x1x288_S64x2048x288_0_1_2),
    TRef.unary (TRef.of (T := ⟨S_, .f32⟩) main_call2_v0) (TRef.of (T := ⟨S64x2048x288, .f32⟩) main_call2_v2) (broadcastInDim S64x2048x288 ![] bcast_S_S64x2048x288),
    TRef.ternary (TRef.of (T := ⟨S64x2048x288, .i1⟩) main_call2_v1) (TRef.of (T := ⟨S64x2048x288, .f32⟩) main_v16) (TRef.of (T := ⟨S64x2048x288, .f32⟩) main_call2_v2) (TRef.of (T := ⟨S64x2048x288, .f32⟩) main_v46) select,
    nullary main_cst_15 (constant S_ .f32 0xFF800000#32),
    binary main_v46 main_cst_15 main_v47 ((fun x v => Host.reduce FloatOps.maximumf x v reducesTo_S64x2048x288_S64x2048_d2 h_S_) : (⟨S64x2048x288, .f32⟩ : BufTy).Contents (Elt F) → (⟨S_, .f32⟩ : BufTy).Contents (Elt F) → (⟨S64x2048, .f32⟩ : BufTy).Contents (Elt F)),
    binary main_v47 main_v45 main_v48 ((fun a b => concatenate S64x4096 1 [⟨S64x2048, a⟩, ⟨S64x2048, b⟩] concatenates_S64x2048_S64x2048_S64x4096_d1) : (⟨S64x2048, .f32⟩ : BufTy).Contents (Elt F) → (⟨S64x2048, .f32⟩ : BufTy).Contents (Elt F) → (⟨S64x4096, .f32⟩ : BufTy).Contents (Elt F)) ]

/-- The whole program. -/
abbrev ops : List (HloOp τ sig (Elt F)) := opsP ++ opsS

set_option maxRecDepth 16384 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem opsP_sub : (opsP : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., binary_bufs_sub .., unary_bufs_sub .., reshape_bufs_sub .., nullary_bufs_sub .., binary_bufs_sub .., nullary_bufs_sub .., unary_bufs_sub .., binary_bufs_sub .., nullary_bufs_sub .., unary_bufs_sub .., binary_bufs_sub .., reshape_bufs_sub .., reshape_bufs_sub .., unary_bufs_sub .., unary_bufs_sub .., unary_bufs_sub .., nullary_bufs_sub .., binary_bufs_sub .., unary_bufs_sub .., unary_bufs_sub .., nullary_bufs_sub .., unary_bufs_sub .., binary_bufs_sub .., nullary_bufs_sub .., unary_bufs_sub .., unary_bufs_sub .., ternary_bufs_sub ..⟩
set_option maxRecDepth 8192 in
theorem opsS_sub : (opsS : List (HloOp τ sig (Elt F))).Forall fun op => op.bufs ⊆ tcRefs τ sig :=
  ⟨unary_bufs_sub .., nullary_bufs_sub .., binary_bufs_sub .., nullary_bufs_sub .., unary_bufs_sub .., binary_bufs_sub .., unary_bufs_sub .., binary_bufs_sub .., nullary_bufs_sub .., binary_bufs_sub .., unary_bufs_sub .., binary_bufs_sub .., nullary_bufs_sub .., unary_bufs_sub .., unary_bufs_sub .., unary_bufs_sub .., ternary_bufs_sub .., nullary_bufs_sub .., binary_bufs_sub .., binary_bufs_sub .., unary_bufs_sub .., nullary_bufs_sub .., binary_bufs_sub .., nullary_bufs_sub .., unary_bufs_sub .., binary_bufs_sub .., unary_bufs_sub .., binary_bufs_sub .., nullary_bufs_sub .., binary_bufs_sub .., unary_bufs_sub .., binary_bufs_sub .., nullary_bufs_sub .., unary_bufs_sub .., unary_bufs_sub .., unary_bufs_sub .., ternary_bufs_sub .., nullary_bufs_sub .., binary_bufs_sub .., binary_bufs_sub ..⟩
theorem ops_sub : (ops : List (HloOp τ sig (Elt F))).Forall fun op => op.bufs ⊆ tcRefs τ sig :=
  List.forall_iff_forall_mem.mpr fun op h => by
    rcases List.mem_append.mp h with h | h
    · exact List.forall_iff_forall_mem.mp opsP_sub op h
    · exact List.forall_iff_forall_mem.mp opsS_sub op h

theorem opsP_fresh : (opsP : List (HloOp τ sig (Elt F))).Forall fun op => op.fresh = ∅ := by
  simp only [List.Forall]; repeat' constructor
theorem opsS_fresh : (opsS : List (HloOp τ sig (Elt F))).Forall fun op => op.fresh = ∅ := by
  simp only [List.Forall]; repeat' constructor

/-- Every weakly fair execution of the reference terminates, and each buffer ends at the last 40 operations' results
    over the contents the first 34 leave. -/
theorem run_raw (m : (ℓ : Loc nD τ sig) → Buf (Elt F) ℓ) (ρ : Dev nD → PrngReg) :
    θ_run defs (onTc (τ := τ) (main (F := F))) ⟨m, fun _ => 0, ρ⟩ fun r => ∀ (c : Dev nD) (b : Ref sig .tc),
      r.2.mem ((c.tc : Thread nD τ).loc b) = after opsS (after opsP (launchContents m c)) (Proc.devRef .tc b) :=
  (θ_run defs _ _).mono (fun _ h c b => (h c b).trans (by rw [StableHlo.after_append]))
    (run_seq scopedRefs_eq scopedSems_eq defs main (fun _ => ops) main_eq (fun _ => ops_sub) m ρ
      (fun _ op h => by
        rcases List.mem_append.mp h with h | h
        · exact List.forall_iff_forall_mem.mp opsP_fresh op h
        · exact List.forall_iff_forall_mem.mp opsS_fresh op h))

end Cert.ReferenceIdeal.Hand

end
-- ==== Proof.RefValue.lean ====
/-
  The reference's two results as functions of the masks and the input halves, and each of their pieces read at one element.

  With `xh` a channel half of the flattened input ([64, 2048, 288]) and `mk` a boolean mask ([64, 1, 288]), the reference's
  result for that half is, along the channel axis, the half's masked maxima followed by its masked averages:
    maxima  (b, j) = the maximum, from -∞, over the pixels r of  xh (b, j, r) where mk (b, 0, r) holds, -∞ elsewhere;
    averages (b, j) = (0 + Σ_r xh (b, j, r) · float (mk (b, 0, r))) / count, count = max (0 + Σ_r float (mk (b, 0, r))) 1.
  A host reduction over the pixel axis is, at the ideal instance, the fold over that axis's coordinates; a broadcast along
  a unit axis reads its operand at coordinate 0 there. The masks themselves are closed functions of the label image,
  stated once here: a patch is cloth when the mean of its 16 × 16 indicators "label is 2 or 3" is at least one half.
-/
import proofs.«113137_j41695542510189_2_alg».proof.Proof.RefRun
import Idealize.ShloMosaic.Lib.ValueIdx
import Idealize.ShloMosaic.Lib.Pipeline.Value
import Idealize.ShloMosaic.PureOps.Ideal.Laws

noncomputable section

open Idealize.ShloMosaic Idealize.ShloMosaic.TcCoe Idealize.SL.Sem Idealize.ShloMosaic.StableHlo Idealize.ShloMosaic.ValueIdx
open scoped BigOperators

namespace Cert.ReferenceIdeal.Hand

open Cert.ReferenceIdeal Cert.ReferenceIdeal.Gen

/-! ## The pooling of one half, as the last 40 operations compute it -/

/-- The masked maxima of a half. -/
def halfMax (xh : FVec Ideal S64x2048x288 .f32) (mk : IVec S64x1x288 1) : FVec Ideal S64x2048 .f32 :=
  Host.reduce FloatOps.maximumf
    (select (broadcastInDim S64x2048x288 ![0, 1, 2] bcast_S64x1x288_S64x2048x288_0_1_2 mk) xh
      (broadcastInDim S64x2048x288 ![] bcast_S_S64x2048x288 (id (constant (F := Ideal) S_ .f32 0xFF800000#32))))
    (constant (F := Ideal) S_ .f32 0xFF800000#32) reducesTo_S64x2048x288_S64x2048_d2 h_S_

/-- The masked sums of a half. -/
def halfSum (xh : FVec Ideal S64x2048x288 .f32) (mk : IVec S64x1x288 1) : FVec Ideal S64x2048 .f32 :=
  Host.reduceAdd (mulf xh (broadcastInDim S64x2048x288 ![0, 1, 2] bcast_S64x1x288_S64x2048x288_0_1_2 (uitofp (F := Ideal) .f32 mk)))
    (constant (F := Ideal) S_ .f32 0x00000000#32) reducesTo_S64x2048x288_S64x2048_d2 h_S_

/-- A mask's count: its float sum over the pixels, or one if that is larger. -/
def count (mk : IVec S64x1x288 1) : FVec Ideal S64x1 .f32 :=
  maximumf (Host.reduceAdd (uitofp (F := Ideal) .f32 mk) (constant S_ .f32 0x00000000#32) reducesTo_S64x1x288_S64x1_d2 h_S_)
    (broadcastInDim S64x1 ![] bcast_S_S64x1 (constant S_ .f32 0x3F800000#32))

/-- A half's result: its maxima, then its averages, along the channel axis. -/
def half (xh : FVec Ideal S64x2048x288 .f32) (mk : IVec S64x1x288 1) : FVec Ideal S64x4096 .f32 :=
  concatenate S64x4096 1 [⟨S64x2048, halfMax xh mk⟩,
    ⟨S64x2048, Host.divf (F := Ideal) (halfSum xh mk) (broadcastInDim S64x2048 ![0, 1] bcast_S64x1_S64x2048_0_1 (count mk))⟩]
    concatenates_S64x2048_S64x2048_S64x4096_d1

/- The last 40 operations cut at the two that lay a half's pieces side by side: the 19 that pool the lower half, the
    lower result's concatenation, the 19 that pool the upper half, the upper result's concatenation. -/
section Split
variable {F : FTy → Type} [FloatOps F]
abbrev opsS1 : List (HloOp τ sig (Elt F)) :=
  [ unary main_v20 main_v25 (uitofp .f32 : (⟨S64x1x288, .i1⟩ : BufTy).Contents (Elt F) → (⟨S64x1x288, .f32⟩ : BufTy).Contents (Elt F)),
    nullary main_cst_6 (constant S_ .f32 0x00000000#32),
    binary main_v25 main_cst_6 main_v26 ((fun x v => Host.reduceAdd x v reducesTo_S64x1x288_S64x1_d2 h_S_) : (⟨S64x1x288, .f32⟩ : BufTy).Contents (Elt F) → (⟨S_, .f32⟩ : BufTy).Contents (Elt F) → (⟨S64x1, .f32⟩ : BufTy).Contents (Elt F)),
    nullary main_cst_7 (constant S_ .f32 0x3F800000#32),
    unary main_cst_7 main_v27 (broadcastInDim S64x1 ![] bcast_S_S64x1 : (⟨S_, .f32⟩ : BufTy).Contents (Elt F) → (⟨S64x1, .f32⟩ : BufTy).Contents (Elt F)),
    binary main_v26 main_v27 main_v28 (maximumf : (⟨S64x1, .f32⟩ : BufTy).Contents (Elt F) → (⟨S64x1, .f32⟩ : BufTy).Contents (Elt F) → (⟨S64x1, .f32⟩ : BufTy).Contents (Elt F)),
    unary main_v25 main_v29 (broadcastInDim S64x2048x288 ![0, 1, 2] bcast_S64x1x288_S64x2048x288_0_1_2 : (⟨S64x1x288, .f32⟩ : BufTy).Contents (Elt F) → (⟨S64x2048x288, .f32⟩ : BufTy).Contents (Elt F)),
    binary main_v15 main_v29 main_v30 (mulf : (⟨S64x2048x288, .f32⟩ : BufTy).Contents (Elt F) → (⟨S64x2048x288, .f32⟩ : BufTy).Contents (Elt F) → (⟨S64x2048x288, .f32⟩ : BufTy).Contents (Elt F)),
    nullary main_cst_8 (constant S_ .f32 0x00000000#32),
    binary main_v30 main_cst_8 main_v31 ((fun x v => Host.reduceAdd x v reducesTo_S64x2048x288_S64x2048_d2 h_S_) : (⟨S64x2048x288, .f32⟩ : BufTy).Contents (Elt F) → (⟨S_, .f32⟩ : BufTy).Contents (Elt F) → (⟨S64x2048, .f32⟩ : BufTy).Contents (Elt F)),
    unary main_v28 main_v32 (broadcastInDim S64x2048 ![0, 1] bcast_S64x1_S64x2048_0_1 : (⟨S64x1, .f32⟩ : BufTy).Contents (Elt F) → (⟨S64x2048, .f32⟩ : BufTy).Contents (Elt F)),
    binary main_v31 main_v32 main_v33 (Host.divf : (⟨S64x2048, .f32⟩ : BufTy).Contents (Elt F) → (⟨S64x2048, .f32⟩ : BufTy).Contents (Elt F) → (⟨S64x2048, .f32⟩ : BufTy).Contents (Elt F)),
    nullary main_cst_9 (constant S_ .f32 0xFF800000#32),
    TRef.unary (TRef.of (T := ⟨S_, .f32⟩) main_cst_9) (TRef.of (T := ⟨S_, .f32⟩) main_call1_v0) id,
    TRef.unary (TRef.of (T := ⟨S64x1x288, .i1⟩) main_v20) (TRef.of (T := ⟨S64x2048x288, .i1⟩) main_call1_v1) (broadcastInDim S64x2048x288 ![0, 1, 2] bcast_S64x1x288_S64x2048x288_0_1_2),
    TRef.unary (TRef.of (T := ⟨S_, .f32⟩) main_call1_v0) (TRef.of (T := ⟨S64x2048x288, .f32⟩) main_call1_v2) (broadcastInDim S64x2048x288 ![] bcast_S_S64x2048x288),
    TRef.ternary (TRef.of (T := ⟨S64x2048x288, .i1⟩) main_call1_v1) (TRef.of (T := ⟨S64x2048x288, .f32⟩) main_v15) (TRef.of (T := ⟨S64x2048x288, .f32⟩) main_call1_v2) (TRef.of (T := ⟨S64x2048x288, .f32⟩) main_v34) select,
    nullary main_cst_10 (constant S_ .f32 0xFF800000#32),
    binary main_v34 main_cst_10 main_v35 ((fun x v => Host.reduce FloatOps.maximumf x v reducesTo_S64x2048x288_S64x2048_d2 h_S_) : (⟨S64x2048x288, .f32⟩ : BufTy).Contents (Elt F) → (⟨S_, .f32⟩ : BufTy).Contents (Elt F) → (⟨S64x2048, .f32⟩ : BufTy).Contents (Elt F)) ]
abbrev op36 : HloOp τ sig (Elt F) :=
  binary main_v35 main_v33 main_v36 ((fun a b => concatenate S64x4096 1 [⟨S64x2048, a⟩, ⟨S64x2048, b⟩] concatenates_S64x2048_S64x2048_S64x4096_d1) : (⟨S64x2048, .f32⟩ : BufTy).Contents (Elt F) → (⟨S64x2048, .f32⟩ : BufTy).Contents (Elt F) → (⟨S64x4096, .f32⟩ : BufTy).Contents (Elt F))
abbrev opsS2 : List (HloOp τ sig (Elt F)) :=
  [ unary main_v24 main_v37 (uitofp .f32 : (⟨S64x1x288, .i1⟩ : BufTy).Contents (Elt F) → (⟨S64x1x288, .f32⟩ : BufTy).Contents (Elt F)),
    nullary main_cst_11 (constant S_ .f32 0x00000000#32),
    binary main_v37 main_cst_11 main_v38 ((fun x v => Host.reduceAdd x v reducesTo_S64x1x288_S64x1_d2 h_S_) : (⟨S64x1x288, .f32⟩ : BufTy).Contents (Elt F) → (⟨S_, .f32⟩ : BufTy).Contents (Elt F) → (⟨S64x1, .f32⟩ : BufTy).Contents (Elt F)),
    nullary main_cst_12 (constant S_ .f32 0x3F800000#32),
    unary main_cst_12 main_v39 (broadcastInDim S64x1 ![] bcast_S_S64x1 : (⟨S_, .f32⟩ : BufTy).Contents (Elt F) → (⟨S64x1, .f32⟩ : BufTy).Contents (Elt F)),
    binary main_v38 main_v39 main_v40 (maximumf : (⟨S64x1, .f32⟩ : BufTy).Contents (Elt F) → (⟨S64x1, .f32⟩ : BufTy).Contents (Elt F) → (⟨S64x1, .f32⟩ : BufTy).Contents (Elt F)),
    unary main_v37 main_v41 (broadcastInDim S64x2048x288 ![0, 1, 2] bcast_S64x1x288_S64x2048x288_0_1_2 : (⟨S64x1x288, .f32⟩ : BufTy).Contents (Elt F) → (⟨S64x2048x288, .f32⟩ : BufTy).Contents (Elt F)),
    binary main_v16 main_v41 main_v42 (mulf : (⟨S64x2048x288, .f32⟩ : BufTy).Contents (Elt F) → (⟨S64x2048x288, .f32⟩ : BufTy).Contents (Elt F) → (⟨S64x2048x288, .f32⟩ : BufTy).Contents (Elt F)),
    nullary main_cst_13 (constant S_ .f32 0x00000000#32),
    binary main_v42 main_cst_13 main_v43 ((fun x v => Host.reduceAdd x v reducesTo_S64x2048x288_S64x2048_d2 h_S_) : (⟨S64x2048x288, .f32⟩ : BufTy).Contents (Elt F) → (⟨S_, .f32⟩ : BufTy).Contents (Elt F) → (⟨S64x2048, .f32⟩ : BufTy).Contents (Elt F)),
    unary main_v40 main_v44 (broadcastInDim S64x2048 ![0, 1] bcast_S64x1_S64x2048_0_1 : (⟨S64x1, .f32⟩ : BufTy).Contents (Elt F) → (⟨S64x2048, .f32⟩ : BufTy).Contents (Elt F)),
    binary main_v43 main_v44 main_v45 (Host.divf : (⟨S64x2048, .f32⟩ : BufTy).Contents (Elt F) → (⟨S64x2048, .f32⟩ : BufTy).Contents (Elt F) → (⟨S64x2048, .f32⟩ : BufTy).Contents (Elt F)),
    nullary main_cst_14 (constant S_ .f32 0xFF800000#32),
    TRef.unary (TRef.of (T := ⟨S_, .f32⟩) main_cst_14) (TRef.of (T := ⟨S_, .f32⟩) main_call2_v0) id,
    TRef.unary (TRef.of (T := ⟨S64x1x288, .i1⟩) main_v24) (TRef.of (T := ⟨S64x2048x288, .i1⟩) main_call2_v1) (broadcastInDim S64x2048x288 ![0, 1, 2] bcast_S64x1x288_S64x2048x288_0_1_2),
    TRef.unary (TRef.of (T := ⟨S_, .f32⟩) main_call2_v0) (TRef.of (T := ⟨S64x2048x288, .f32⟩) main_call2_v2) (broadcastInDim S64x2048x288 ![] bcast_S_S64x2048x288),
    TRef.ternary (TRef.of (T := ⟨S64x2048x288, .i1⟩) main_call2_v1) (TRef.of (T := ⟨S64x2048x288, .f32⟩) main_v16) (TRef.of (T := ⟨S64x2048x288, .f32⟩) main_call2_v2) (TRef.of (T := ⟨S64x2048x288, .f32⟩) main_v46) select,
    nullary main_cst_15 (constant S_ .f32 0xFF800000#32),
    binary main_v46 main_cst_15 main_v47 ((fun x v => Host.reduce FloatOps.maximumf x v reducesTo_S64x2048x288_S64x2048_d2 h_S_) : (⟨S64x2048x288, .f32⟩ : BufTy).Contents (Elt F) → (⟨S_, .f32⟩ : BufTy).Contents (Elt F) → (⟨S64x2048, .f32⟩ : BufTy).Contents (Elt F)) ]
abbrev op48 : HloOp τ sig (Elt F) :=
  binary main_v47 main_v45 main_v48 ((fun a b => concatenate S64x4096 1 [⟨S64x2048, a⟩, ⟨S64x2048, b⟩] concatenates_S64x2048_S64x2048_S64x4096_d1) : (⟨S64x2048, .f32⟩ : BufTy).Contents (Elt F) → (⟨S64x2048, .f32⟩ : BufTy).Contents (Elt F) → (⟨S64x4096, .f32⟩ : BufTy).Contents (Elt F))

theorem opsS_split : (opsS : List (HloOp τ sig (Elt F))) = opsS1 ++ op36 :: (opsS2 ++ [op48]) := rfl
end Split

theorem after_opsS (U : Valuation τ sig (Elt Ideal)) :
    after opsS U = after [op48] (after opsS2 (after [op36] (after opsS1 U))) := by
  rw [opsS_split, after_append, after_cons, after_append]
  rfl

theorem v35_of (U : Valuation τ sig (Elt Ideal)) :
    after opsS1 U (Proc.devRef .tc main_v35) = halfMax (U (Proc.devRef .tc main_v15)) (U (Proc.devRef .tc main_v20)) := by
  unfold halfMax
  after_results_simp <;> (try simp only [TRef.toBuf, TRef.ofBuf, cast_eq]) <;> rfl

theorem v33_of (U : Valuation τ sig (Elt Ideal)) :
    after opsS1 U (Proc.devRef .tc main_v33)
      = Host.divf (F := Ideal) (halfSum (U (Proc.devRef .tc main_v15)) (U (Proc.devRef .tc main_v20)))
          (broadcastInDim S64x2048 ![0, 1] bcast_S64x1_S64x2048_0_1 (count (U (Proc.devRef .tc main_v20)))) := by
  unfold halfSum count
  after_results_simp <;> (try simp only [TRef.toBuf, TRef.ofBuf, cast_eq]) <;> rfl

theorem v36_of (Y : Valuation τ sig (Elt Ideal)) :
    after [op36] Y (Proc.devRef .tc main_v36)
      = concatenate S64x4096 1 [⟨S64x2048, Y (Proc.devRef .tc main_v35)⟩, ⟨S64x2048, Y (Proc.devRef .tc main_v33)⟩] concatenates_S64x2048_S64x2048_S64x4096_d1 := by
  after_results_simp <;> rfl

theorem keep36_S2 (Y : Valuation τ sig (Elt Ideal)) : after opsS2 Y (Proc.devRef .tc main_v36) = Y (Proc.devRef .tc main_v36) := by
  after_results_simp <;> rfl
theorem keep36_48 (Y : Valuation τ sig (Elt Ideal)) : after [op48] Y (Proc.devRef .tc main_v36) = Y (Proc.devRef .tc main_v36) := by
  after_results_simp <;> rfl

theorem out36_of (U : Valuation τ sig (Elt Ideal)) :
    after opsS U (Proc.devRef .tc main_v36) = half (U (Proc.devRef .tc main_v15)) (U (Proc.devRef .tc main_v20)) := by
  rw [after_opsS, keep36_48, keep36_S2, v36_of, v35_of, v33_of]
  rfl

theorem v47_of (Y : Valuation τ sig (Elt Ideal)) :
    after opsS2 Y (Proc.devRef .tc main_v47) = halfMax (Y (Proc.devRef .tc main_v16)) (Y (Proc.devRef .tc main_v24)) := by
  unfold halfMax
  after_results_simp <;> (try simp only [TRef.toBuf, TRef.ofBuf, cast_eq]) <;> rfl

theorem v45_of (Y : Valuation τ sig (Elt Ideal)) :
    after opsS2 Y (Proc.devRef .tc main_v45)
      = Host.divf (F := Ideal) (halfSum (Y (Proc.devRef .tc main_v16)) (Y (Proc.devRef .tc main_v24)))
          (broadcastInDim S64x2048 ![0, 1] bcast_S64x1_S64x2048_0_1 (count (Y (Proc.devRef .tc main_v24)))) := by
  unfold halfSum count
  after_results_simp <;> (try simp only [TRef.toBuf, TRef.ofBuf, cast_eq]) <;> rfl

theorem v48_of (Y : Valuation τ sig (Elt Ideal)) :
    after [op48] Y (Proc.devRef .tc main_v48)
      = concatenate S64x4096 1 [⟨S64x2048, Y (Proc.devRef .tc main_v47)⟩, ⟨S64x2048, Y (Proc.devRef .tc main_v45)⟩] concatenates_S64x2048_S64x2048_S64x4096_d1 := by
  after_results_simp <;> rfl

theorem keep16_36 (Y : Valuation τ sig (Elt Ideal)) : after [op36] Y (Proc.devRef .tc main_v16) = Y (Proc.devRef .tc main_v16) := by
  after_results_simp <;> rfl
theorem keep24_36 (Y : Valuation τ sig (Elt Ideal)) : after [op36] Y (Proc.devRef .tc main_v24) = Y (Proc.devRef .tc main_v24) := by
  after_results_simp <;> rfl
theorem keep16_S1 (U : Valuation τ sig (Elt Ideal)) : after opsS1 U (Proc.devRef .tc main_v16) = U (Proc.devRef .tc main_v16) := by
  after_results_simp <;> rfl
theorem keep24_S1 (U : Valuation τ sig (Elt Ideal)) : after opsS1 U (Proc.devRef .tc main_v24) = U (Proc.devRef .tc main_v24) := by
  after_results_simp <;> rfl

theorem out48_of (U : Valuation τ sig (Elt Ideal)) :
    after opsS U (Proc.devRef .tc main_v48) = half (U (Proc.devRef .tc main_v16)) (U (Proc.devRef .tc main_v24)) := by
  rw [after_opsS, v48_of, v47_of, v45_of, keep16_36, keep24_36, keep16_S1, keep24_S1]
  rfl

variable (m : (ℓ : Loc nD τ sig) → Buf (Elt Ideal) ℓ)

/-- The contents after the first 34 operations. -/
def WR (c : Dev nD) : Valuation τ sig (Elt Ideal) := after opsP (launchContents m c)

def idmR (c : Dev nD) : IVec S64x1x288 1 := WR m c (Proc.devRef .tc main_v20)
def clmR (c : Dev nD) : IVec S64x1x288 1 := WR m c (Proc.devRef .tc main_v24)
def xlo (c : Dev nD) : FVec Ideal S64x2048x288 .f32 := WR m c (Proc.devRef .tc main_v15)
def xhi (c : Dev nD) : FVec Ideal S64x2048x288 .f32 := WR m c (Proc.devRef .tc main_v16)

theorem kept_arg0 (c : Dev nD) : after opsS (after opsP (launchContents m c)) (Proc.devRef .tc main_arg0) = m ((c.tc : Thread nD τ).loc main_arg0) := by
  after_results_simp <;> (try simp only [TRef.toBuf, TRef.ofBuf, cast_eq]) <;> rfl
theorem kept_arg1 (c : Dev nD) : after opsS (after opsP (launchContents m c)) (Proc.devRef .tc main_arg1) = m ((c.tc : Thread nD τ).loc main_arg1) := by
  after_results_simp <;> (try simp only [TRef.toBuf, TRef.ofBuf, cast_eq]) <;> rfl

/-- The reference's run, read: each result the pooling of its half under its mask, the arguments unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v36) = half (xlo m c) (idmR m c)
      ∧ r.2.mem ((c.tc : Thread nD τ).loc main_v48) = half (xhi m c) (clmR m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨(h c main_v36).trans (out36_of _), (h c main_v48).trans (out48_of _),
     (h c main_arg0).trans (kept_arg0 m c), (h c main_arg1).trans (kept_arg1 m c)⟩)
    (run_raw m ρ)

/-! ## The masks and the halves as closed functions of the arguments -/

/-- The boolean cloth mask over the patches, one row of 288 per image. -/
def fmask (a : IVec S32x384x192 32) : IVec S64x1x288 1 :=
  shapeCast _ (cmpf (F := Ideal) .oge
    (Host.divf
      (Host.reduceAdd
        (shapeCast _ (uitofp (F := Ideal) .f32 (ori
          (cmpi .eq (concatenate S64x384x192 0 [⟨S32x384x192, a⟩, ⟨S32x384x192, a⟩] concatenates_S32x384x192_S32x384x192_S64x384x192_d0)
            (broadcastInDim S64x384x192 ![] bcast_S_S64x384x192 (constantI S_ 32 2#32)))
          (cmpi .eq (concatenate S64x384x192 0 [⟨S32x384x192, a⟩, ⟨S32x384x192, a⟩] concatenates_S32x384x192_S32x384x192_S64x384x192_d0)
            (broadcastInDim S64x384x192 ![] bcast_S_S64x384x192 (constantI S_ 32 3#32)))))
          shapeCasts_S64x384x192_S64x24x16x12x16)
        (constant S_ .f32 0x00000000#32) reducesTo_S64x24x16x12x16_S64x24x12_d2_4 h_S_)
      (broadcastInDim S64x24x12 ![] bcast_S_S64x24x12 (constant S_ .f32 0x43800000#32)))
    (broadcastInDim S64x24x12 ![] bcast_S_S64x24x12 (constant S_ .f32 0x3F000000#32)))
    shapeCasts_S64x24x12_S64x1x288

/-- The identity mask: the complement. -/
def idMask (a : IVec S32x384x192 32) : IVec S64x1x288 1 := noti (fmask a)

/-- The effective cloth mask: the cloth mask, or everything for an image with no cloth patch. -/
def clothMask (a : IVec S32x384x192 32) : IVec S64x1x288 1 :=
  select
    (broadcastInDim S64x1x288 ![0, 1, 2] bcast_S64x1x1_S64x1x288_0_1_2
      (cmpi .eq
        (broadcastInDim S64x1x1 ![0, 1] bcast_S64x1_S64x1x1_0_1
          (Host.reduce IntOp.addi (extui 32 (fmask a) natLt_1_32) (constantI S_ 32 0#32) reducesTo_S64x1x288_S64x1_d2 h_S_))
        (broadcastInDim S64x1x1 ![] bcast_S_S64x1x1 (constantI S_ 32 0#32))))
    (broadcastInDim S64x1x288 ![] bcast_S_S64x1x288 (constantI S_ 1 1#1))
    (fmask a)

/-- The flattened input. -/
def flat (x : FVec Ideal S64x4096x24x12 .f32) : FVec Ideal S64x4096x288 .f32 := shapeCast _ x shapeCasts_S64x4096x24x12_S64x4096x288

theorem idmR_eq (c : Dev nD) : idmR m c = idMask (m ((c.tc : Thread nD τ).loc main_arg1)) := by
  unfold idmR WR idMask fmask
  after_results_simp <;> (try simp only [TRef.toBuf, TRef.ofBuf, cast_eq]) <;> rfl

theorem clmR_eq (c : Dev nD) : clmR m c = clothMask (m ((c.tc : Thread nD τ).loc main_arg1)) := by
  unfold clmR WR clothMask fmask
  after_results_simp <;> (try simp only [TRef.toBuf, TRef.ofBuf, cast_eq]) <;> rfl

theorem xlo_eq (c : Dev nD) : xlo m c = extractStridedSlice S64x2048x288 ![0, 0, 0] (flat (m ((c.tc : Thread nD τ).loc main_arg0))) slices_S64x4096x288_S64x2048x288_0_0_0 := by
  unfold xlo WR flat
  after_results_simp <;> (try simp only [TRef.toBuf, TRef.ofBuf, cast_eq]) <;> rfl

theorem xhi_eq (c : Dev nD) : xhi m c = extractStridedSlice S64x2048x288 ![0, 2048, 0] (flat (m ((c.tc : Thread nD τ).loc main_arg0))) slices_S64x4096x288_S64x2048x288_0_2048_0 := by
  unfold xhi WR flat
  after_results_simp <;> (try simp only [TRef.toBuf, TRef.ofBuf, cast_eq]) <;> rfl

end Cert.ReferenceIdeal.Hand

end
-- ==== Proof.Bridge.lean ====
/-
  The two programs compute one function.

  Kernel side: the region leaves two [64, 4096] arrays, the masked sums and masked maxima over the pixels of the flattened
  input X, channel ch using slot 1 (cloth) of the stacked float masks from channel 2048 on and slot 0 (identity) below;
  the lines after the region cut each array into its channel halves, divide a half's sums by the half's mask count and put
  a half's maxima and averages side by side. Reference side: each half of X is pooled under its boolean mask directly.
  The two agree piece by piece. For a channel j of the lower half, ch = j < 2048 picks slot 0, whose value at a pixel is
  the float of the identity mask's bit, and for the upper half ch = 2048 + j picks slot 1, the cloth mask's; the float of a
  bit is 0 or 1, so "float ≠ 0" is the bit itself and the kernel's select on that comparison is the reference's select on
  the bit; the sums are the same sums of the same products (the reference's starts from the zero it adds to), the maxima
  the same folds of max from -∞, and the counts the same term. No law beyond 0 + s = s is used, so the finiteness of the
  input is never needed.
-/
import proofs.«113137_j41695542510189_2_alg».proof.Proof.KHost
import proofs.«113137_j41695542510189_2_alg».proof.Proof.RefValue
import Idealize.ShloMosaic.Lib.ValueIdx
import Idealize.ShloMosaic.Lib.Pipeline.Value
import Idealize.ShloMosaic.PureOps.Ideal.Laws

noncomputable section

open Idealize.ShloMosaic Idealize.ShloMosaic.ValueIdx
open scoped BigOperators

namespace Cert.Bridge

/-! ## One bit -/

/-- The float of a bit is not zero exactly when the bit is set. -/
theorem cmp_uitofp (b : BitVec 1) :
    FloatOps.cmpf (F := Ideal) (φ := .f32) .one (FloatOps.uitofp .f32 b) (Scalar.ofBits (F := Ideal) .f32 0x00000000#32) = b := by
  have hz : Scalar.ofBits (F := Ideal) .f32 0x00000000#32 = (0 : EReal) := Ideal.ofBits_zero_f32
  rw [hz]
  show Ideal.cmp .one (((b.toNat : ℝ) : EReal)) 0 = b
  rcases BitVec.eq_zero_or_eq_one b with h | h <;> subst h
  · first | simp [Ideal.cmp] | norm_num [Ideal.cmp]
  · first | simp [Ideal.cmp] | norm_num [Ideal.cmp]

/-! ## The reference's pieces at an element -/

section Ref
open Cert.ReferenceIdeal Cert.ReferenceIdeal.Gen Cert.ReferenceIdeal.Hand

theorem liftR (hR : S64x2048x288.Reduces [2] S64x2048) (b : Fin 64) (j : Fin 2048) (k : Fin 288) :
    hR.lift (ix2 b j) k = ix3 b j k := by
  funext a
  apply Fin.ext
  match a with
  | ⟨0, _⟩ => rfl
  | ⟨1, _⟩ => rfl
  | ⟨2, _⟩ => rfl

/-- A mask row broadcast over the channels reads the row. -/
theorem bmask_at {α : Type} (mk : S64x1x288.Idx → α) (b : Fin 64) (j : Fin 2048) (r : Fin 288) :
    broadcastInDim S64x2048x288 ![0, 1, 2] bcast_S64x1x288_S64x2048x288_0_1_2 mk (ix3 b j r) = mk (ix3 b 0 r) :=
  broadcastInDim_apply _ bcast_S64x1x288_S64x2048x288_0_1_2 mk (ix3 b j r) (ix3 b 0 r) (fun a => by
    match a with
    | ⟨0, _⟩ => show b.val = if (64 : Nat) = 1 then 0 else b.val; rw [if_neg (by decide)]
    | ⟨1, _⟩ => show 0 = if (1 : Nat) = 1 then 0 else j.val; rw [if_pos rfl]
    | ⟨2, _⟩ => show r.val = if (288 : Nat) = 1 then 0 else r.val; rw [if_neg (by decide)])

theorem halfSum_at (xh : FVec Ideal S64x2048x288 .f32) (mk : IVec S64x1x288 1) (b : Fin 64) (j : Fin 2048) :
    halfSum xh mk (ix2 b j) = ∑ r : Fin 288, xh (ix3 b j r) * FloatOps.uitofp (F := Ideal) .f32 (mk (ix3 b 0 r)) := by
  unfold halfSum
  have hR : S64x2048x288.Reduces [2] S64x2048 := by decide
  simp only [Host.reduceAdd, Ideal.hostReduceAdd_def]
  rw [Ideal.hostReduceAdd_single reducesTo_S64x2048x288_S64x2048_d2 hR]
  rw [show (constant (F := Ideal) S_ .f32 0x00000000#32) (Shape.Idx.first h_S_) = (0 : EReal) from Ideal.ofBits_zero_f32, zero_add]
  refine Finset.sum_congr rfl (fun (r : Fin 288) _ => ?_)
  show xh (hR.lift (ix2 b j) r) * broadcastInDim S64x2048x288 ![0, 1, 2] bcast_S64x1x288_S64x2048x288_0_1_2 (uitofp (F := Ideal) .f32 mk) (hR.lift (ix2 b j) r) = _
  rw [liftR hR b j r, bmask_at _ b j r]
  rfl

theorem halfMax_at (xh : FVec Ideal S64x2048x288 .f32) (mk : IVec S64x1x288 1) (b : Fin 64) (j : Fin 2048) :
    halfMax xh mk (ix2 b j) = (Finset.univ : Finset (Fin 288)).fold max (FloatOps.ofBits (F := Ideal) .f32 0xFF800000#32)
      (fun r => Scalar.select (mk (ix3 b 0 r)) (xh (ix3 b j r)) (Scalar.ofBits (F := Ideal) .f32 0xFF800000#32)) := by
  unfold halfMax
  have hR : S64x2048x288.Reduces [2] S64x2048 := by decide
  refine (Host.reduce_eq_fold_single FloatOps.maximumf _ _ reducesTo_S64x2048x288_S64x2048_d2 hR h_S_ (ix2 b j)).trans ?_
  refine congrArg (fun f => (Finset.univ : Finset (Fin 288)).fold max (FloatOps.ofBits (F := Ideal) .f32 0xFF800000#32) f)
    (funext fun (r : Fin 288) => ?_)
  show Scalar.select (broadcastInDim S64x2048x288 ![0, 1, 2] bcast_S64x1x288_S64x2048x288_0_1_2 mk (hR.lift (ix2 b j) r))
      (xh (hR.lift (ix2 b j) r)) _ = _
  rw [liftR hR b j r, bmask_at mk b j r]
  rfl

end Ref

/-! ## The kernel's pieces at an element -/

section Ker
open Cert.KernelIdeal Cert.KernelIdeal.Gen Cert.KernelIdeal.Blocks Cert.KernelIdeal.Host

theorem stacked_0 (A B : IVec S64x1x288 1) (b : Fin 64) (r : Fin 288) :
    stacked A B (ix3 b 0 r) = FloatOps.uitofp (F := Ideal) .f32 (A (ix3 b 0 r)) := by
  unfold stacked
  exact concatenate_pair_apply_left (t := S64x2x288) (s₁ := S64x1x288) (s₂ := S64x1x288) (1 : Fin 3) (uitofp (F := Ideal) .f32 A) (uitofp (F := Ideal) .f32 B) concatenates_S64x1x288_S64x1x288_S64x2x288_d1 (ix3 b (0 : Fin 2) r) rfl (ix3 b (0 : Fin 1) r) (fun a => by
    match a with
    | ⟨0, _⟩ => rfl
    | ⟨1, _⟩ => rfl
    | ⟨2, _⟩ => rfl)

theorem stacked_1 (A B : IVec S64x1x288 1) (b : Fin 64) (r : Fin 288) :
    stacked A B (ix3 b 1 r) = FloatOps.uitofp (F := Ideal) .f32 (B (ix3 b 0 r)) := by
  unfold stacked
  exact concatenate_pair_apply_right (t := S64x2x288) (s₁ := S64x1x288) (s₂ := S64x1x288) (1 : Fin 3) (uitofp (F := Ideal) .f32 A) (uitofp (F := Ideal) .f32 B) concatenates_S64x1x288_S64x1x288_S64x2x288_d1 (ix3 b (1 : Fin 2) r) rfl rfl (ix3 b (0 : Fin 1) r)
    (fun a ha => by
      match a with
      | ⟨0, _⟩ => rfl
      | ⟨1, _⟩ => exact absurd rfl ha
      | ⟨2, _⟩ => rfl)
    rfl

/-- A channel half of a [64, 4096] array at (b, j) is the array at (b, off + j). -/
theorem slice_at (off : Nat) (hoff : off + 2048 ≤ 4096) (hs : S64x4096.Slices ![0, off] S64x2048) (Y : S64x4096.Idx → EReal)
    (b : Fin 64) (j : Fin 2048) :
    extractStridedSlice S64x2048 ![0, off] Y hs (ix2 b j) = Y (ix2 b (⟨off + j.val, by have := j.isLt; omega⟩ : Fin 4096)) :=
  extractStridedSlice_apply _ Y hs (ix2 b j) _ (fun a => by
    match a with
    | ⟨0, _⟩ => show b.val = 0 + b.val; omega
    | ⟨1, _⟩ => rfl)

/-- A channel half of the flattened input at (b, j, r). -/
theorem xslice_at (off : Nat) (hoff : off + 2048 ≤ 4096) (X : S64x4096x288.Idx → EReal)
    (hs : Cert.ReferenceIdeal.S64x4096x288.Slices ![0, off, 0] Cert.ReferenceIdeal.S64x2048x288) (b : Fin 64) (j : Fin 2048) (r : Fin 288) :
    extractStridedSlice Cert.ReferenceIdeal.S64x2048x288 ![0, off, 0] X hs (ix3 b j r)
      = X (ix3 b (⟨off + j.val, by have := j.isLt; omega⟩ : Fin 4096) r) :=
  extractStridedSlice_apply _ X hs (ix3 b j r) _ (fun a => by
    match a with
    | ⟨0, _⟩ => show b.val = 0 + b.val; omega
    | ⟨1, _⟩ => rfl
    | ⟨2, _⟩ => show r.val = 0 + r.val; omega)

end Ker

/-! ## The halves agree -/

open Cert.KernelIdeal.Blocks Cert.KernelIdeal.Host in
/-- The lower half: channels below 2048 use the identity mask. -/
theorem lower (X : Cert.KernelIdeal.S64x4096x288.Idx → EReal) (A B : IVec Cert.KernelIdeal.S64x1x288 1) :
    Cert.ReferenceIdeal.Hand.half (extractStridedSlice Cert.ReferenceIdeal.S64x2048x288 ![0, 0, 0] X Cert.ReferenceIdeal.Facts₀.slices_S64x4096x288_S64x2048x288_0_0_0) A
      = halfOut ![0, 0] Cert.KernelIdeal.Facts₀.slices_S64x4096_S64x2048_0_0 (sumArr X (stacked A B)) (maxArr X (stacked A B)) (count A) := by
  have e1 : Cert.ReferenceIdeal.Hand.halfMax (extractStridedSlice Cert.ReferenceIdeal.S64x2048x288 ![0, 0, 0] X Cert.ReferenceIdeal.Facts₀.slices_S64x4096x288_S64x2048x288_0_0_0) A
      = extractStridedSlice Cert.KernelIdeal.S64x2048 ![0, 0] (maxArr X (stacked A B)) Cert.KernelIdeal.Facts₀.slices_S64x4096_S64x2048_0_0 := by
    funext i
    obtain ⟨b, j, rfl⟩ : ∃ (b : Fin 64) (j : Fin 2048), i = ix2 b j := ⟨i 0, i 1, eq_ix2 i⟩
    rw [halfMax_at, slice_at 0 (by decide)]
    show _ = maxAt X (stacked A B) b (⟨0 + j.val, _⟩ : Fin 4096)
    unfold maxAt pick
    refine congrArg (fun f => (Finset.univ : Finset (Fin 288)).fold max (FloatOps.ofBits (F := Ideal) .f32 0xFF800000#32) f)
      (funext fun (r : Fin 288) => ?_)
    rw [if_neg (show ¬ 2048 ≤ 0 + j.val by have := j.isLt; omega), stacked_0, cmp_uitofp, xslice_at 0 (by decide)]
  have e2 : Cert.ReferenceIdeal.Hand.halfSum (extractStridedSlice Cert.ReferenceIdeal.S64x2048x288 ![0, 0, 0] X Cert.ReferenceIdeal.Facts₀.slices_S64x4096x288_S64x2048x288_0_0_0) A
      = extractStridedSlice Cert.KernelIdeal.S64x2048 ![0, 0] (sumArr X (stacked A B)) Cert.KernelIdeal.Facts₀.slices_S64x4096_S64x2048_0_0 := by
    funext i
    obtain ⟨b, j, rfl⟩ : ∃ (b : Fin 64) (j : Fin 2048), i = ix2 b j := ⟨i 0, i 1, eq_ix2 i⟩
    rw [halfSum_at, slice_at 0 (by decide)]
    show _ = sumAt X (stacked A B) b (⟨0 + j.val, _⟩ : Fin 4096)
    unfold sumAt pick
    refine Finset.sum_congr rfl (fun (r : Fin 288) _ => ?_)
    rw [if_neg (show ¬ 2048 ≤ 0 + j.val by have := j.isLt; omega), stacked_0, xslice_at 0 (by decide)]
  unfold Cert.ReferenceIdeal.Hand.half halfOut
  rw [e1, e2]
  rfl

open Cert.KernelIdeal.Blocks Cert.KernelIdeal.Host in
/-- The upper half: channels from 2048 on use the cloth mask. -/
theorem upper (X : Cert.KernelIdeal.S64x4096x288.Idx → EReal) (A B : IVec Cert.KernelIdeal.S64x1x288 1) :
    Cert.ReferenceIdeal.Hand.half (extractStridedSlice Cert.ReferenceIdeal.S64x2048x288 ![0, 2048, 0] X Cert.ReferenceIdeal.Facts₀.slices_S64x4096x288_S64x2048x288_0_2048_0) B
      = halfOut ![0, 2048] Cert.KernelIdeal.Facts₀.slices_S64x4096_S64x2048_0_2048 (sumArr X (stacked A B)) (maxArr X (stacked A B)) (count B) := by
  have e1 : Cert.ReferenceIdeal.Hand.halfMax (extractStridedSlice Cert.ReferenceIdeal.S64x2048x288 ![0, 2048, 0] X Cert.ReferenceIdeal.Facts₀.slices_S64x4096x288_S64x2048x288_0_2048_0) B
      = extractStridedSlice Cert.KernelIdeal.S64x2048 ![0, 2048] (maxArr X (stacked A B)) Cert.KernelIdeal.Facts₀.slices_S64x4096_S64x2048_0_2048 := by
    funext i
    obtain ⟨b, j, rfl⟩ : ∃ (b : Fin 64) (j : Fin 2048), i = ix2 b j := ⟨i 0, i 1, eq_ix2 i⟩
    rw [halfMax_at, slice_at 2048 (by decide)]
    show _ = maxAt X (stacked A B) b (⟨2048 + j.val, _⟩ : Fin 4096)
    unfold maxAt pick
    refine congrArg (fun f => (Finset.univ : Finset (Fin 288)).fold max (FloatOps.ofBits (F := Ideal) .f32 0xFF800000#32) f)
      (funext fun (r : Fin 288) => ?_)
    rw [if_pos (show 2048 ≤ 2048 + j.val by omega), stacked_1, cmp_uitofp, xslice_at 2048 (by decide)]
  have e2 : Cert.ReferenceIdeal.Hand.halfSum (extractStridedSlice Cert.ReferenceIdeal.S64x2048x288 ![0, 2048, 0] X Cert.ReferenceIdeal.Facts₀.slices_S64x4096x288_S64x2048x288_0_2048_0) B
      = extractStridedSlice Cert.KernelIdeal.S64x2048 ![0, 2048] (sumArr X (stacked A B)) Cert.KernelIdeal.Facts₀.slices_S64x4096_S64x2048_0_2048 := by
    funext i
    obtain ⟨b, j, rfl⟩ : ∃ (b : Fin 64) (j : Fin 2048), i = ix2 b j := ⟨i 0, i 1, eq_ix2 i⟩
    rw [halfSum_at, slice_at 2048 (by decide)]
    show _ = sumAt X (stacked A B) b (⟨2048 + j.val, _⟩ : Fin 4096)
    unfold sumAt pick
    refine Finset.sum_congr rfl (fun (r : Fin 288) _ => ?_)
    rw [if_pos (show 2048 ≤ 2048 + j.val by omega), stacked_1, xslice_at 2048 (by decide)]
  unfold Cert.ReferenceIdeal.Hand.half halfOut
  rw [e1, e2]
  rfl

/-! ## The kernel program's masks and flattened input are the reference's functions of the arguments -/

section Masks
open Cert.KernelIdeal Cert.KernelIdeal.Gen Cert.KernelIdeal.Host Idealize.ShloMosaic.StableHlo Idealize.ShloMosaic.TcCoe Idealize.SL.Sem

variable (m : (ℓ : Loc nD τ sig) → Buf (Elt Ideal) ℓ)

theorem idm_eq (c : Dev nD) : idm m c = Cert.ReferenceIdeal.Hand.idMask (m ((c.tc : Thread nD τ).loc main_arg1)) := by
  unfold idm W Cert.ReferenceIdeal.Hand.idMask Cert.ReferenceIdeal.Hand.fmask
  after_results_simp <;> (try simp only [TRef.toBuf, TRef.ofBuf, cast_eq]) <;> rfl

theorem clm_eq (c : Dev nD) : clm m c = Cert.ReferenceIdeal.Hand.clothMask (m ((c.tc : Thread nD τ).loc main_arg1)) := by
  unfold clm W Cert.ReferenceIdeal.Hand.clothMask Cert.ReferenceIdeal.Hand.fmask
  after_results_simp <;> (try simp only [TRef.toBuf, TRef.ofBuf, cast_eq]) <;> rfl

theorem xflat_eq (c : Dev nD) : xflat m c = Cert.ReferenceIdeal.Hand.flat (m ((c.tc : Thread nD τ).loc main_arg0)) := by
  unfold xflat W Cert.ReferenceIdeal.Hand.flat
  after_results_simp <;> (try simp only [TRef.toBuf, TRef.ofBuf, cast_eq]) <;> rfl

end Masks

end Cert.Bridge

end
-- ==== Proof.lean ====
/-
  Masked max-and-average pooling with two masks: the fused kernel against the split reference.

  For each of 64 images the label image gives, over the 24 × 12 = 288 patches, a boolean cloth mask, its complement the
  identity mask, and the effective cloth mask (the cloth mask, or all patches when none is cloth). The float input has 4096
  channels per image, 288 pixels each; the first 2048 channels are pooled under the identity mask, the last 2048 under
  the effective cloth mask: per channel the maximum over the kept pixels (from -∞) and the sum over the kept pixels divided
  by the larger of the number kept and one. A result is a half's 2048 maxima followed by its 2048 averages.

  The reference pools each half separately on the host. The kernel program pools all 4096 channels in one region over a
  2 × 32 grid of (batch tile, channel tile) points — 32 images by 128 channels by all 288 pixels per point — reading the
  two masks stacked as floats and choosing the slot by the channel tile's number (tiles 0 … 15 identity, 16 … 31 cloth),
  writing the sums and the maxima; the host then cuts both arrays into halves, divides the sums by the mask counts and
  lays maxima and averages side by side.

  The frames of the two kernel programs are the class-A frame certificates (a copy of the generated text in which the
  grid point is threaded to the stored values, which read it). The reference's frame is its run with the results dropped.
  The ideal pass rewrote nothing, so `preserves` is `True`. For `algebraic`: the kernel's two arrays are each one function
  of what the region finds (blocks to arrays, Proof/KBlocks.lean, over the payloads read at an element,
  Proof/KPayload.lean), the host lines around the region are read with the masks left opaque (Proof/KHost.lean), the
  reference is read the same way (Proof/RefRun.lean, Proof/RefValue.lean), both programs' masks are one closed function of
  the label image, and the halves agree piece by piece, element by element (Proof/Bridge.lean): the float of a mask bit is
  0 or 1, so the kernel's "≠ 0" recovers the bit, the sums and the folds of max range over the same pixels, and
  0 + s = s is the only law used. The precondition (a finite input) is not needed.
-/
import proofs.«113137_j41695542510189_2_alg».proof.Defs
import proofs.«113137_j41695542510189_2_alg».proof.Proof.Gen.Kernel
import proofs.«113137_j41695542510189_2_alg».proof.Proof.Gen.KernelIdeal
import proofs.«113137_j41695542510189_2_alg».proof.Proof.Gen.ReferenceIdeal
import proofs.«113137_j41695542510189_2_alg».proof.Proof.Gen.Pre_finite_inputs
import proofs.«113137_j41695542510189_2_alg».proof.Proof.FrameKernel
import proofs.«113137_j41695542510189_2_alg».proof.Proof.FrameKernelIdeal
import proofs.«113137_j41695542510189_2_alg».proof.Proof.KHost
import proofs.«113137_j41695542510189_2_alg».proof.Proof.RefValue
import proofs.«113137_j41695542510189_2_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.GenP.frame m ρ

theorem frame_ki : Cert.frame_KernelIdeal := fun m ρ _ => Cert.KernelIdeal.GenP.frame m ρ

/-- The reference's frame: its run with the results dropped. -/
theorem frame_ri : Cert.frame_ReferenceIdeal := fun m ρ _ =>
  (θ_run Cert.ReferenceIdeal.defs _ _).mono (fun _ h c => ⟨(h c).2.2.1, (h c).2.2.2⟩) (Cert.ReferenceIdeal.Hand.run m ρ)

/-- The ideal pass rewrote no operation. -/
theorem preserves : Cert.preserves_Kernel_KernelIdeal := trivial

/-- Both programs end, from memories agreeing on the arguments, with equal results: each result is the pooling of its
    channel half under its mask, and the kernel's fused, tiled computation of it agrees with the reference's element by
    element. -/
theorem algebraic : Cert.algebraic_KernelIdeal_ReferenceIdeal := by
  intro m ρ m' ρ' _ hagree
  refine ⟨_, _, Cert.KernelIdeal.Host.run m ρ, ?_⟩
  refine (θ_run Cert.ReferenceIdeal.defs _ _).mono (fun _ h c => ?_) (Cert.ReferenceIdeal.Hand.run m' ρ')
  obtain ⟨h0, h1, h2, h3⟩ := h c
  refine ⟨h0.trans ?_, h1.trans ?_, h2, h3⟩
  · rw [Cert.ReferenceIdeal.Hand.xlo_eq, Cert.ReferenceIdeal.Hand.idmR_eq, (hagree c).1, (hagree c).2,
      Cert.Bridge.xflat_eq, Cert.Bridge.idm_eq, Cert.Bridge.clm_eq]
    exact Cert.Bridge.lower _ _ _
  · rw [Cert.ReferenceIdeal.Hand.xhi_eq, Cert.ReferenceIdeal.Hand.clmR_eq, (hagree c).1, (hagree c).2,
      Cert.Bridge.xflat_eq, Cert.Bridge.idm_eq, Cert.Bridge.clm_eq]
    exact Cert.Bridge.upper _ _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
